-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S144x64 : S_.BroadcastsInDim S144x64 (![] : Fin 0 → Fin S144x64.rank)
  reducesTo_S144x64_S_d0_1 : S144x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64 .f32) (main_arg9 : FVec F S64x2 .f32) (main_arg10 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg9
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S144x64 .f32) (main_arg8 : FVec F S64 .f32) (main_arg9 : FVec F S64x2 .f32) (main_arg10 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S144x64 .f32 := Host.absf main_arg7
  let main_cst_10 : FVec F S_ .f32 := constant S_ .f32 0x7F800000#32
  let main_v30 : FVec F S144x64 .f32 := broadcastInDim S144x64 ![] bcast_S_S144x64 main_cst_10
  let main_v31 : IVec S144x64 1 := cmpf .olt main_v29 main_v30
  let main_c_11 : IVec S_ 1 := constantI S_ 1 1#1
  let main_v32 : IVec S_ 1 := (fun x v => Host.reduce IntOp.andi x v reducesTo_S144x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x16 .f32) (main_arg3 : FVec F S128x64 .f32) (main_arg4 : FVec F S64 .f32) (main_arg5 : FVec F S64x64 .f32) (main_arg6 : FVec F S64 .f32) (main_arg7 : FVec F S144x64 .f32) (main_arg8 : FVec F S64 .f32) (main_arg9 : FVec F S64x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S16x64 : Shape := ⟨2, ![16, 64]⟩
abbrev S1x2 : Shape := ⟨2, ![1, 2]⟩
abbrev S800000x2 : Shape := ⟨2, ![800000, 2]⟩
abbrev S5000x16 : Shape := ⟨2, ![5000, 16]⟩
abbrev S5000x2 : Shape := ⟨2, ![5000, 2]⟩

abbrev nBuf : Space → Nat
  | .hbm => 149
  | .vmem => 24
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x64, .f32⟩
  | 4 => ⟨S64, .f32⟩
  | 5 => ⟨S64x64, .f32⟩
  | 6 => ⟨S64, .f32⟩
  | 7 => ⟨S144x64, .f32⟩
  | 8 => ⟨S64, .f32⟩
  | 9 => ⟨S64x2, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S64x64, .f32⟩
  | 16 => ⟨S64x64, .f32⟩
  | 17 => ⟨S16x64, .f32⟩
  | 18 => ⟨S1x64, .f32⟩
  | 19 => ⟨S1x2, .f32⟩
  | 20 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x16, .f32⟩
  | .local _ .vmem, ⟨15, _⟩ => ⟨S5000x16, .f32⟩
  | .local _ .vmem, ⟨16, _⟩ => ⟨S64x64, .f32⟩
  | .local _ .vmem, ⟨17, _⟩ => ⟨S64x64, .f32⟩
  | .local _ .vmem, ⟨18, _⟩ => ⟨S16x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_c_18 : Ref sig .tc := ⟨.hbm, 125, rfl⟩
abbrev main_v90 : Ref sig .tc := ⟨.hbm, 126, rfl⟩
abbrev main_v91 : Ref sig .tc := ⟨.hbm, 127, rfl⟩
abbrev main_c_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_20 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x2 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000_S800000x1_0 : S800000.BroadcastsInDim S800000x1 (![0] : Fin 1 → Fin S800000x1.rank)
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  shapeCasts_S2_S1x2 : S2.ShapeCasts S1x2
  bitsLt_bf16_f32 : FTy.bits .bf16 < FTy.bits .f32
  inb_S5000x16_S5000x16_0_0 : ∀ a, (![0, 0] : Fin 2 → Nat) a + S5000x16.size a ≤ S5000x16.size a
  h_S5000x16 : 0 < S5000x16.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x128_S128x64_S5000x64_1_0_0_1_n_n_wf : DotDims.WF S5000x128 S128x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S5000x16_S16x64_S5000x64_1_0_0_1_n_n_wf : DotDims.WF S5000x16 S16x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .f32 = 32 ∨ (Rect.block (s := S800000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S800000x64.size a
  hwx2_1 : ∀ i : grid2.Coords, EltTy.bits .f32 = 32 ∨ (Rect.block (s := S800000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S800000x16.size a
  hwx2_2 : ∀ i : grid2.Coords, EltTy.bits .f32 = 32 ∨ (Rect.block (s := S800000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x2.size a ≤ S64x2.size a
  hwx2_7 : ∀ i : grid2.Coords, EltTy.bits .f32 = 32 ∨ (Rect.block (s := S64x2) S64x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x2.size a ≤ S800000x2.size a
  hwx2_9 : ∀ i : grid2.Coords, EltTy.bits .f32 = 32 ∨ (Rect.block (s := S800000x2) S5000x2.size (cc2_transform_9 i) (hinb2_9 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v104) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v105) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v107) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v108) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v109) S5000x2.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x64 : Shape := ⟨2, ![128, 64]⟩
abbrev S64 : Shape := ⟨1, ![64]⟩
abbrev S64x64 : Shape := ⟨2, ![64, 64]⟩
abbrev S144x64 : Shape := ⟨2, ![144, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S800000x144 : Shape := ⟨2, ![800000, 144]⟩
abbrev S800000x2 : Shape := ⟨2, ![800000, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x64, .f32⟩
  | 4 => ⟨S64, .f32⟩
  | 5 => ⟨S64x64, .f32⟩
  | 6 => ⟨S64, .f32⟩
  | 7 => ⟨S144x64, .f32⟩
  | 8 => ⟨S64, .f32⟩
  | 9 => ⟨S64x2, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x144, .f32⟩
  | 16 => ⟨S800000x64, .f32⟩
  | 17 => ⟨S1x64, .f32⟩
  | 18 => ⟨S800000x64, .f32⟩
  | 19 => ⟨S800000x64, .f32⟩
  | 20 => ⟨S_, .f32⟩
  | 21 => ⟨S800000x64, .f32⟩
  | 22 => ⟨S800000x64, .f32⟩
  | 23 => ⟨S800000x2, .f32⟩
  | 24 => ⟨S1x2, .f32⟩
  | 25 => ⟨S800000x2, .f32⟩
  | 26 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_c_18 : Ref sig .tc := ⟨.hbm, 125, rfl⟩
abbrev main_v90 : Ref sig .tc := ⟨.hbm, 126, rfl⟩
abbrev main_v91 : Ref sig .tc := ⟨.hbm, 127, rfl⟩
abbrev main_c_19 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_20 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call2_cst : Ref sig .tc := ⟨.hbm, 148, rfl⟩
abbrev main_call2_v0 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x2_S800000x2_1_0_0_1_n_n_wf : DotDims.WF S800000x64 S64x2 S800000x2 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.KernelRun.lean ====
/-
  The kernel program's run with its result named.

  @main is nine segments: host stretches and three pipelined regions.  The buffer contents at each segment boundary are a
  fold from the launch memory (the generated frame's W0 … W9); the last boundary's contents W9 are what every unscoped
  buffer holds when @main returns.  The frame claim reads only the argument buffers off that last state; read here is
  also the result buffer: it ends at W9's value for it, which the value modules then compute stage by stage.
-/
import proofs.«146419_j84378927497589_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v109) = W9 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v109 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Run

end
-- ==== Proof.KerStages.lean ====
/-
  The host-side stages of the graph network, each as ONE function of the values it reads (the kernel program's spelling).

  Edges arrive as a [2, E] integer table: row 0 the sources, row 1 the targets. A graph-convolution layer appends one
  self-loop per node, counts each node's in-degree d (self-loop included) by a scatter-add of ones, normalises an
  edge s → t by d(s)^(-1/2) · d(t)^(-1/2), gathers the projected features of the sources, scales them, scatter-adds
  them into the targets, adds the bias and rectifies.  A negative index counts from the end (x < 0 ? x + N : x).
  The endpoint gather reads a node table at the sources (or the targets) of the E edges.
  These functions are never opened by the certificate: both programs apply the same operations, so the two sides are
  compared stage by stage at equal arguments.
-/
import proofs.«146419_j84378927497589_2_alg».proof.Proof.Gen.KernelIdeal
import Idealize.ShloMosaic.PureOps.Ideal

noncomputable section

namespace Cert.KernelIdeal.Stages

open Cert.KernelIdeal Cert.KernelIdeal.Gen Idealize.ShloMosaic

/-- Row `r` of the edge table as a vector of E node indices. -/
def edgeSrc (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

def edgeDst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The E edge endpoints followed by the N self-loops 0, 1, …, N-1. -/
def withLoops (s : (⟨S800000, .i32⟩ : BufTy).Contents (Elt Ideal)) : (⟨S850000, .i32⟩ : BufTy).Contents (Elt Ideal) :=
  concatenate S850000 0 [⟨S800000, s⟩, ⟨S50000, (iotaInDim S50000 32 0)⟩] concatenates_S800000_S50000_S850000_d0

/-- A negative index counts from the end of the N nodes. -/
def wrapNeg (x : (⟨S850000, .i32⟩ : BufTy).Contents (Elt Ideal)) : (⟨S850000, .i32⟩ : BufTy).Contents (Elt Ideal) :=
  select (cmpi .slt x (broadcastInDim S850000 ![] bcast_S_S850000 (constantI S_ 32 0#32)))
    (addi x (broadcastInDim S850000 ![] bcast_S_S850000 (constantI S_ 32 50000#32))) x

/-- An index vector as a one-column index table. -/
def asCol (x : (⟨S850000, .i32⟩ : BufTy).Contents (Elt Ideal)) : (⟨S850000x1, .i32⟩ : BufTy).Contents (Elt Ideal) :=
  broadcastInDim S850000x1 ![0] bcast_S850000_S850000x1_0 x

/-- d^(-1/2) per node, d the in-degree over the targets `t` (self-loops included), never below 1. -/
def degInv (t : (⟨S850000, .i32⟩ : BufTy).Contents (Elt Ideal)) : (⟨S50000, .f32⟩ : BufTy).Contents (Elt Ideal) :=
  Host.rsqrt (F := Ideal) (maximumf
    (Host.scatterAdd (F := Ideal) scatter_S50000_S850000x1_S850000_n_0_0_1
      (broadcastInDim S50000 ![] bcast_S_S50000 (constant (F := Ideal) S_ .f32 0x00000000#32)) (asCol t)
      (broadcastInDim S850000 ![] bcast_S_S850000 (constant (F := Ideal) S_ .f32 0x3F800000#32)))
    (broadcastInDim S50000 ![] bcast_S_S50000 (constant (F := Ideal) S_ .f32 0x3F800000#32)))

/-- The per-edge factor d(s)^(-1/2) · d(t)^(-1/2), from the per-node d^(-1/2) and the two endpoint vectors (self-loops
    appended). -/
def edgeNorm (dinv : (⟨S50000, .f32⟩ : BufTy).Contents (Elt Ideal)) (s t : (⟨S850000, .i32⟩ : BufTy).Contents (Elt Ideal)) :
    (⟨S850000, .f32⟩ : BufTy).Contents (Elt Ideal) :=
  mulf (F := Ideal) (φ := .f32)
    (Host.gather gather_S50000_S850000x1_S850000_n_0_n_n_0_1_1 dinv (asCol (wrapNeg s)))
    (Host.gather gather_S50000_S850000x1_S850000_n_0_n_n_0_1_1 dinv (asCol (wrapNeg t)))

/-- The sources' projected features, scaled per edge, summed into the targets, plus the bias. -/
def aggregate (h : (⟨S50000x64, .f32⟩ : BufTy).Contents (Elt Ideal)) (b : (⟨S64, .f32⟩ : BufTy).Contents (Elt Ideal))
    (s t : (⟨S850000, .i32⟩ : BufTy).Contents (Elt Ideal)) (norm : (⟨S850000, .f32⟩ : BufTy).Contents (Elt Ideal)) :
    (⟨S50000x64, .f32⟩ : BufTy).Contents (Elt Ideal) :=
  addf (F := Ideal) (φ := .f32)
    (Host.scatterAdd (F := Ideal) scatter_S50000x64_S850000x1_S850000x64_1_0_0_1
      (broadcastInDim S50000x64 ![] bcast_S_S50000x64 (constant (F := Ideal) S_ .f32 0x00000000#32))
      (asCol t)
      (mulf (F := Ideal) (φ := .f32)
        (Host.gather gather_S50000x64_S850000x1_S850000x64_1_0_n_n_0_1_164 h (asCol (wrapNeg s)))
        (broadcastInDim S850000x64 ![0, 1] bcast_S850000x1_S850000x64_0_1
          (broadcastInDim S850000x1 ![0] bcast_S850000_S850000x1_0 norm))))
    (broadcastInDim S50000x64 ![0, 1] bcast_S1x64_S50000x64_0_1 (broadcastInDim S1x64 ![1] bcast_S64_S1x64_1 b))

/-- The rectifier on a node table. -/
def rectify (x : (⟨S50000x64, .f32⟩ : BufTy).Contents (Elt Ideal)) : (⟨S50000x64, .f32⟩ : BufTy).Contents (Elt Ideal) :=
  maximumf (F := Ideal) (φ := .f32) x (broadcastInDim S50000x64 ![] bcast_S_S50000x64 (constant (F := Ideal) S_ .f32 0x00000000#32))

/-- One graph-convolution layer after the dense projection `h`: normalised aggregation over sources `s` into
    targets `d`, bias `b`, rectifier. -/
def gcn (h : (⟨S50000x64, .f32⟩ : BufTy).Contents (Elt Ideal)) (b : (⟨S64, .f32⟩ : BufTy).Contents (Elt Ideal))
    (s d : (⟨S800000, .i32⟩ : BufTy).Contents (Elt Ideal)) : (⟨S50000x64, .f32⟩ : BufTy).Contents (Elt Ideal) :=
  rectify (aggregate h b (withLoops s) (withLoops d) (edgeNorm (degInv (withLoops d)) (withLoops s) (withLoops d)))

/-- The node table `h` read at the E endpoints `s`. -/
def endpoint (h : (⟨S50000x64, .f32⟩ : BufTy).Contents (Elt Ideal)) (s : (⟨S800000, .i32⟩ : BufTy).Contents (Elt Ideal)) :
    (⟨S800000x64, .f32⟩ : BufTy).Contents (Elt Ideal) :=
  Host.gather gather_S50000x64_S800000x1_S800000x64_1_0_n_n_0_1_164 h
    (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s))

end Cert.KernelIdeal.Stages

end
-- ==== Proof.KerChainStart.lean ====
/-
  The kernel program's first host stretch, from ANY buffer contents `W`: the edge table's two rows become the source and
  target vectors, and the arguments pass through untouched.
-/
import proofs.«146419_j84378927497589_2_alg».proof.Proof.KerStages
import proofs.«146419_j84378927497589_2_alg».proof.Proof.Gen.KernelIdeal.Launch
import Idealize.ShloMosaic.Lib.StableHlo.Run

set_option maxRecDepth 16384

noncomputable section

namespace Cert.KernelIdeal.Chain

open Cert.KernelIdeal Cert.KernelIdeal.Gen Cert.KernelIdeal.Stages
open Idealize.ShloMosaic Idealize.ShloMosaic.TcCoe Idealize.SL.Sem Idealize.ShloMosaic.StableHlo

variable (W : Valuation τ sig (Elt Ideal))

theorem src0 : StableHlo.after (hostOps0 (F := Ideal)) W (Proc.devRef .tc main_v1) = edgeSrc (W (Proc.devRef .tc main_arg1)) := by
  dsimp only [hostOps0]; after_results_simp <;> rfl

theorem dst0 : StableHlo.after (hostOps0 (F := Ideal)) W (Proc.devRef .tc main_v3) = edgeDst (W (Proc.devRef .tc main_arg1)) := by
  dsimp only [hostOps0]; after_results_simp <;> rfl

/-- The arguments pass through. -/
theorem kept0 (b : Ref sig .tc)
    (hb : b ∈ [main_arg0, main_arg1, main_arg2, main_arg3, main_arg4, main_arg5, main_arg6, main_arg7, main_arg8, main_arg9, main_arg10]) :
    StableHlo.after (hostOps0 (F := Ideal)) W (Proc.devRef .tc b) = W (Proc.devRef .tc b) := by
  simp only [List.mem_cons, List.not_mem_nil, or_false] at hb
  rcases hb with rfl | rfl | rfl | rfl | rfl | rfl | rfl | rfl | rfl | rfl | rfl <;>
    (dsimp only [hostOps0]; after_results_simp)

end Cert.KernelIdeal.Chain

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.KerChainLayer1.lean ====
/-
  The host stretch between the two projections, from ANY buffer contents `W`: it leaves in its result buffer the graph-convolution
  stage of the projected features, the bias and the two endpoint vectors.  The stretch is read in parts, cut where few
  buffers are live: first the endpoint vectors with the self-loops appended and the degree normalisation d^(-1/2); then
  the per-edge factor d(s)^(-1/2)·d(t)^(-1/2); then the gather of the sources' features, the scaling, the scatter-add into
  the targets and the bias; last the rectifier.  The contents after parts in a row are the later part's from the earlier
  part's.
-/
import proofs.«146419_j84378927497589_2_alg».proof.Proof.KerStages
import proofs.«146419_j84378927497589_2_alg».proof.Proof.LibAppend
import proofs.«146419_j84378927497589_2_alg».proof.Proof.Gen.KernelIdeal.Launch
import Idealize.ShloMosaic.Lib.StableHlo.Run

set_option maxRecDepth 16384

noncomputable section

namespace Cert.KernelIdeal.Chain.Layer1

open Cert.KernelIdeal Cert.KernelIdeal.Gen Cert.KernelIdeal.Stages
open Idealize.ShloMosaic Idealize.ShloMosaic.TcCoe Idealize.SL.Sem Idealize.ShloMosaic.StableHlo

/-- The three parts of the stretch's long list. -/
abbrev partA : List (HloOp τ sig (Elt Ideal)) := (hostOps1 (F := Ideal)).take 13
abbrev partB : List (HloOp τ sig (Elt Ideal)) := ((hostOps1 (F := Ideal)).drop 13).take 19
abbrev partC : List (HloOp τ sig (Elt Ideal)) := ((hostOps1 (F := Ideal)).drop 13).drop 19

theorem parts : (hostOps1 (F := Ideal)) = partA ++ (partB ++ partC) := by
  unfold partA partB partC
  rw [List.take_append_drop, List.take_append_drop]

variable (W : Valuation τ sig (Elt Ideal))

/-! ## Part A: self-loops appended, degree normalisation -/

theorem a_src : StableHlo.after partA W (Proc.devRef .tc main_v6) = withLoops (W (Proc.devRef .tc main_v1)) := by
  unfold partA; simp only [hostOps1, List.take_succ_cons, List.take_zero, List.drop_succ_cons, List.drop_zero]; after_results_simp <;> rfl
theorem a_dst : StableHlo.after partA W (Proc.devRef .tc main_v7) = withLoops (W (Proc.devRef .tc main_v3)) := by
  unfold partA; simp only [hostOps1, List.take_succ_cons, List.take_zero, List.drop_succ_cons, List.drop_zero]; after_results_simp <;> rfl
theorem a_dinv : StableHlo.after partA W (Proc.devRef .tc main_v14) = degInv (withLoops (W (Proc.devRef .tc main_v3))) := by
  unfold partA; simp only [hostOps1, List.take_succ_cons, List.take_zero, List.drop_succ_cons, List.drop_zero]; after_results_simp <;> rfl
theorem a_feat : StableHlo.after partA W (Proc.devRef .tc main_v4) = W (Proc.devRef .tc main_v4) := by
  unfold partA; simp only [hostOps1, List.take_succ_cons, List.take_zero, List.drop_succ_cons, List.drop_zero]; after_results_simp
theorem a_bias : StableHlo.after partA W (Proc.devRef .tc main_arg4) = W (Proc.devRef .tc main_arg4) := by
  unfold partA; simp only [hostOps1, List.take_succ_cons, List.take_zero, List.drop_succ_cons, List.drop_zero]; after_results_simp

/-! ## Part B: the per-edge factor -/

theorem b_norm : StableHlo.after partB W (Proc.devRef .tc main_v29) = edgeNorm (W (Proc.devRef .tc main_v14)) (W (Proc.devRef .tc main_v6)) (W (Proc.devRef .tc main_v7)) := by
  unfold partB; simp only [hostOps1, List.take_succ_cons, List.take_zero, List.drop_succ_cons, List.drop_zero]; after_results_simp <;> rfl
theorem b_src : StableHlo.after partB W (Proc.devRef .tc main_v6) = W (Proc.devRef .tc main_v6) := by
  unfold partB; simp only [hostOps1, List.take_succ_cons, List.take_zero, List.drop_succ_cons, List.drop_zero]; after_results_simp
theorem b_dst : StableHlo.after partB W (Proc.devRef .tc main_v7) = W (Proc.devRef .tc main_v7) := by
  unfold partB; simp only [hostOps1, List.take_succ_cons, List.take_zero, List.drop_succ_cons, List.drop_zero]; after_results_simp
theorem b_feat : StableHlo.after partB W (Proc.devRef .tc main_v4) = W (Proc.devRef .tc main_v4) := by
  unfold partB; simp only [hostOps1, List.take_succ_cons, List.take_zero, List.drop_succ_cons, List.drop_zero]; after_results_simp
theorem b_bias : StableHlo.after partB W (Proc.devRef .tc main_arg4) = W (Proc.devRef .tc main_arg4) := by
  unfold partB; simp only [hostOps1, List.take_succ_cons, List.take_zero, List.drop_succ_cons, List.drop_zero]; after_results_simp

/-! ## Part C: gather, scale, scatter-add, bias -/

theorem c_pre : StableHlo.after partC W (Proc.devRef .tc main_v45)
    = aggregate (W (Proc.devRef .tc main_v4)) (W (Proc.devRef .tc main_arg4)) (W (Proc.devRef .tc main_v6)) (W (Proc.devRef .tc main_v7)) (W (Proc.devRef .tc main_v29)) := by
  unfold partC; simp only [hostOps1, List.take_succ_cons, List.take_zero, List.drop_succ_cons, List.drop_zero]; after_results_simp <;> rfl

/-! ## The rectifier -/

theorem d_out : StableHlo.after (hostOps1_1 (F := Ideal)) W (Proc.devRef .tc main_v46) = rectify (W (Proc.devRef .tc main_v45)) := by
  dsimp only [hostOps1_1]; after_results_simp <;> rfl

end Cert.KernelIdeal.Chain.Layer1

namespace Cert.KernelIdeal.Chain

open Cert.KernelIdeal Cert.KernelIdeal.Gen Cert.KernelIdeal.Stages
open Idealize.ShloMosaic Idealize.ShloMosaic.TcCoe Idealize.SL.Sem Idealize.ShloMosaic.StableHlo

/-- THE STRETCH, whole: the parts in a row. -/
theorem layer1 (W : Valuation τ sig (Elt Ideal)) :
    StableHlo.after (hostOps1_1 (F := Ideal)) (StableHlo.after (hostOps1 (F := Ideal)) W) (Proc.devRef .tc main_v46)
      = gcn (W (Proc.devRef .tc main_v4)) (W (Proc.devRef .tc main_arg4)) (W (Proc.devRef .tc main_v1)) (W (Proc.devRef .tc main_v3)) := by
  rw [Layer1.d_out, Layer1.parts, Cert.ListParts.after_append, Cert.ListParts.after_append, Layer1.c_pre,
    Layer1.b_norm, Layer1.b_src, Layer1.b_dst, Layer1.b_feat, Layer1.b_bias,
    Layer1.a_dinv, Layer1.a_src, Layer1.a_dst, Layer1.a_feat, Layer1.a_bias]
  rfl

end Cert.KernelIdeal.Chain

end
-- ==== Proof.KerChainLayer2.lean ====
/-
  The host stretch after the second projection, from ANY buffer contents `W`: it leaves in its result buffer the graph-convolution
  stage of the projected features, the bias and the two endpoint vectors.  The stretch is read in parts, cut where few
  buffers are live: first the endpoint vectors with the self-loops appended and the degree normalisation d^(-1/2); then
  the per-edge factor d(s)^(-1/2)·d(t)^(-1/2); then the gather of the sources' features, the scaling, the scatter-add into
  the targets and the bias; last the rectifier.  The contents after parts in a row are the later part's from the earlier
  part's.
-/
import proofs.«146419_j84378927497589_2_alg».proof.Proof.KerStages
import proofs.«146419_j84378927497589_2_alg».proof.Proof.LibAppend
import proofs.«146419_j84378927497589_2_alg».proof.Proof.Gen.KernelIdeal.Launch
import Idealize.ShloMosaic.Lib.StableHlo.Run

set_option maxRecDepth 16384

noncomputable section

namespace Cert.KernelIdeal.Chain.Layer2

open Cert.KernelIdeal Cert.KernelIdeal.Gen Cert.KernelIdeal.Stages
open Idealize.ShloMosaic Idealize.ShloMosaic.TcCoe Idealize.SL.Sem Idealize.ShloMosaic.StableHlo

/-- The three parts of the stretch's long list. -/
abbrev partA : List (HloOp τ sig (Elt Ideal)) := (hostOps2 (F := Ideal)).take 13
abbrev partB : List (HloOp τ sig (Elt Ideal)) := ((hostOps2 (F := Ideal)).drop 13).take 19
abbrev partC : List (HloOp τ sig (Elt Ideal)) := ((hostOps2 (F := Ideal)).drop 13).drop 19

theorem parts : (hostOps2 (F := Ideal)) = partA ++ (partB ++ partC) := by
  unfold partA partB partC
  rw [List.take_append_drop, List.take_append_drop]

variable (W : Valuation τ sig (Elt Ideal))

/-! ## Part A: self-loops appended, degree normalisation -/

theorem a_src : StableHlo.after partA W (Proc.devRef .tc main_v49) = withLoops (W (Proc.devRef .tc main_v1)) := by
  unfold partA; simp only [hostOps2, List.take_succ_cons, List.take_zero, List.drop_succ_cons, List.drop_zero]; after_results_simp <;> rfl
theorem a_dst : StableHlo.after partA W (Proc.devRef .tc main_v50) = withLoops (W (Proc.devRef .tc main_v3)) := by
  unfold partA; simp only [hostOps2, List.take_succ_cons, List.take_zero, List.drop_succ_cons, List.drop_zero]; after_results_simp <;> rfl
theorem a_dinv : StableHlo.after partA W (Proc.devRef .tc main_v57) = degInv (withLoops (W (Proc.devRef .tc main_v3))) := by
  unfold partA; simp only [hostOps2, List.take_succ_cons, List.take_zero, List.drop_succ_cons, List.drop_zero]; after_results_simp <;> rfl
theorem a_feat : StableHlo.after partA W (Proc.devRef .tc main_v47) = W (Proc.devRef .tc main_v47) := by
  unfold partA; simp only [hostOps2, List.take_succ_cons, List.take_zero, List.drop_succ_cons, List.drop_zero]; after_results_simp
theorem a_bias : StableHlo.after partA W (Proc.devRef .tc main_arg6) = W (Proc.devRef .tc main_arg6) := by
  unfold partA; simp only [hostOps2, List.take_succ_cons, List.take_zero, List.drop_succ_cons, List.drop_zero]; after_results_simp

/-! ## Part B: the per-edge factor -/

theorem b_norm : StableHlo.after partB W (Proc.devRef .tc main_v72) = edgeNorm (W (Proc.devRef .tc main_v57)) (W (Proc.devRef .tc main_v49)) (W (Proc.devRef .tc main_v50)) := by
  unfold partB; simp only [hostOps2, List.take_succ_cons, List.take_zero, List.drop_succ_cons, List.drop_zero]; after_results_simp <;> rfl
theorem b_src : StableHlo.after partB W (Proc.devRef .tc main_v49) = W (Proc.devRef .tc main_v49) := by
  unfold partB; simp only [hostOps2, List.take_succ_cons, List.take_zero, List.drop_succ_cons, List.drop_zero]; after_results_simp
theorem b_dst : StableHlo.after partB W (Proc.devRef .tc main_v50) = W (Proc.devRef .tc main_v50) := by
  unfold partB; simp only [hostOps2, List.take_succ_cons, List.take_zero, List.drop_succ_cons, List.drop_zero]; after_results_simp
theorem b_feat : StableHlo.after partB W (Proc.devRef .tc main_v47) = W (Proc.devRef .tc main_v47) := by
  unfold partB; simp only [hostOps2, List.take_succ_cons, List.take_zero, List.drop_succ_cons, List.drop_zero]; after_results_simp
theorem b_bias : StableHlo.after partB W (Proc.devRef .tc main_arg6) = W (Proc.devRef .tc main_arg6) := by
  unfold partB; simp only [hostOps2, List.take_succ_cons, List.take_zero, List.drop_succ_cons, List.drop_zero]; after_results_simp

/-! ## Part C: gather, scale, scatter-add, bias -/

theorem c_pre : StableHlo.after partC W (Proc.devRef .tc main_v88)
    = aggregate (W (Proc.devRef .tc main_v47)) (W (Proc.devRef .tc main_arg6)) (W (Proc.devRef .tc main_v49)) (W (Proc.devRef .tc main_v50)) (W (Proc.devRef .tc main_v72)) := by
  unfold partC; simp only [hostOps2, List.take_succ_cons, List.take_zero, List.drop_succ_cons, List.drop_zero]; after_results_simp <;> rfl

/-! ## The rectifier -/

theorem d_out : StableHlo.after (hostOps2_1 (F := Ideal)) W (Proc.devRef .tc main_v89) = rectify (W (Proc.devRef .tc main_v88)) := by
  dsimp only [hostOps2_1]; after_results_simp <;> rfl

end Cert.KernelIdeal.Chain.Layer2

namespace Cert.KernelIdeal.Chain

open Cert.KernelIdeal Cert.KernelIdeal.Gen Cert.KernelIdeal.Stages
open Idealize.ShloMosaic Idealize.ShloMosaic.TcCoe Idealize.SL.Sem Idealize.ShloMosaic.StableHlo

/-- THE STRETCH, whole: the parts in a row. -/
theorem layer2 (W : Valuation τ sig (Elt Ideal)) :
    StableHlo.after (hostOps2_1 (F := Ideal)) (StableHlo.after (hostOps2 (F := Ideal)) W) (Proc.devRef .tc main_v89)
      = gcn (W (Proc.devRef .tc main_v47)) (W (Proc.devRef .tc main_arg6)) (W (Proc.devRef .tc main_v1)) (W (Proc.devRef .tc main_v3)) := by
  rw [Layer2.d_out, Layer2.parts, Cert.ListParts.after_append, Cert.ListParts.after_append, Layer2.c_pre,
    Layer2.b_norm, Layer2.b_src, Layer2.b_dst, Layer2.b_feat, Layer2.b_bias,
    Layer2.a_dinv, Layer2.a_src, Layer2.a_dst, Layer2.a_feat, Layer2.a_bias]
  rfl

end Cert.KernelIdeal.Chain

end
-- ==== Proof.KerChainKept.lean ====
/-
  Which buffers the two long host stretches leave untouched, from ANY buffer contents `W`: no operation of the stretch
  writes the endpoint vectors or the arguments still to be used, so they hold afterwards what they held before.
-/
import proofs.«146419_j84378927497589_2_alg».proof.Proof.KerStages
import proofs.«146419_j84378927497589_2_alg».proof.Proof.Gen.KernelIdeal.Launch
import Idealize.ShloMosaic.Lib.StableHlo.Run

set_option maxRecDepth 16384

noncomputable section

namespace Cert.KernelIdeal.Chain

open Cert.KernelIdeal Cert.KernelIdeal.Gen Cert.KernelIdeal.Stages
open Idealize.ShloMosaic Idealize.ShloMosaic.TcCoe Idealize.SL.Sem Idealize.ShloMosaic.StableHlo

variable (W : Valuation τ sig (Elt Ideal))

/-- A buffer no operation of the first layer's stretch writes. -/
theorem kept1 (b : Ref sig .tc)
    (hb : b ∈ [main_v1, main_v3, main_arg2, main_arg5, main_arg6, main_arg7, main_arg8, main_arg9, main_arg10]) :
    StableHlo.after (hostOps1_1 (F := Ideal)) (StableHlo.after (hostOps1 (F := Ideal)) W) (Proc.devRef .tc b) = W (Proc.devRef .tc b) := by
  simp only [List.mem_cons, List.not_mem_nil, or_false] at hb
  rcases hb with rfl | rfl | rfl | rfl | rfl | rfl | rfl | rfl | rfl <;>
    exact ((StableHlo.after_of_forall_not_mem _ _ (List.forall_iff_forall_mem.mp (by
      simp only [hostOps1_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
      (StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- A buffer no operation of the second layer's stretch writes. -/
theorem kept2 (b : Ref sig .tc)
    (hb : b ∈ [main_v1, main_v3, main_arg2, main_arg7, main_arg8, main_arg9, main_arg10]) :
    StableHlo.after (hostOps2_1 (F := Ideal)) (StableHlo.after (hostOps2 (F := Ideal)) W) (Proc.devRef .tc b) = W (Proc.devRef .tc b) := by
  simp only [List.mem_cons, List.not_mem_nil, or_false] at hb
  rcases hb with rfl | rfl | rfl | rfl | rfl | rfl | rfl <;>
    exact ((StableHlo.after_of_forall_not_mem _ _ (List.forall_iff_forall_mem.mp (by
      simp only [hostOps2_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))).trans
      (StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.Chain

end
-- ==== Proof.KerChainEnd.lean ====
/-
  The last host stretch before the edge perceptron, from ANY buffer contents `W`: the two endpoint gathers of the node
  embeddings, the first weight matrix cut into its three row blocks, the two bias vectors as one-row matrices; the edge
  features and the second weight matrix pass through.
-/
import proofs.«146419_j84378927497589_2_alg».proof.Proof.KerStages
import proofs.«146419_j84378927497589_2_alg».proof.Proof.Gen.KernelIdeal.Launch
import Idealize.ShloMosaic.Lib.StableHlo.Run

set_option maxRecDepth 16384

noncomputable section

namespace Cert.KernelIdeal.Chain

open Cert.KernelIdeal Cert.KernelIdeal.Gen Cert.KernelIdeal.Stages
open Idealize.ShloMosaic Idealize.ShloMosaic.TcCoe Idealize.SL.Sem Idealize.ShloMosaic.StableHlo

variable (W : Valuation τ sig (Elt Ideal))

theorem atSrc : StableHlo.after (hostOps2_2 (F := Ideal)) W (Proc.devRef .tc main_v96)
    = endpoint (W (Proc.devRef .tc main_v89)) (W (Proc.devRef .tc main_v1)) := by
  dsimp only [hostOps2_2]; after_results_simp <;> rfl

theorem atDst : StableHlo.after (hostOps2_2 (F := Ideal)) W (Proc.devRef .tc main_v103)
    = endpoint (W (Proc.devRef .tc main_v89)) (W (Proc.devRef .tc main_v3)) := by
  dsimp only [hostOps2_2]; after_results_simp <;> rfl

/-- The 144-row weight matrix cut into its three row blocks (rows 0–63, 64–127, 128–143). -/
theorem wSrc : StableHlo.after (hostOps2_2 (F := Ideal)) W (Proc.devRef .tc main_v104)
    = extractStridedSlice S64x64 ![0, 0] (W (Proc.devRef .tc main_arg7)) slices_S144x64_S64x64_0_0 := by
  dsimp only [hostOps2_2]; after_results_simp <;> rfl
theorem wDst : StableHlo.after (hostOps2_2 (F := Ideal)) W (Proc.devRef .tc main_v105)
    = extractStridedSlice S64x64 ![64, 0] (W (Proc.devRef .tc main_arg7)) slices_S144x64_S64x64_64_0 := by
  dsimp only [hostOps2_2]; after_results_simp <;> rfl
theorem wEdge : StableHlo.after (hostOps2_2 (F := Ideal)) W (Proc.devRef .tc main_v106)
    = extractStridedSlice S16x64 ![128, 0] (W (Proc.devRef .tc main_arg7)) slices_S144x64_S16x64_128_0 := by
  dsimp only [hostOps2_2]; after_results_simp <;> rfl
/-- The two bias vectors as one-row matrices. -/
theorem bRow1 : StableHlo.after (hostOps2_2 (F := Ideal)) W (Proc.devRef .tc main_v107)
    = shapeCast S1x64 (W (Proc.devRef .tc main_arg8)) shapeCasts_S64_S1x64 := by
  dsimp only [hostOps2_2]; after_results_simp <;> rfl
theorem bRow2 : StableHlo.after (hostOps2_2 (F := Ideal)) W (Proc.devRef .tc main_v108)
    = shapeCast S1x2 (W (Proc.devRef .tc main_arg10)) shapeCasts_S2_S1x2 := by
  dsimp only [hostOps2_2]; after_results_simp <;> rfl

theorem kept3 (b : Ref sig .tc) (hb : b ∈ [main_arg2, main_arg9]) :
    StableHlo.after (hostOps2_2 (F := Ideal)) W (Proc.devRef .tc b) = W (Proc.devRef .tc b) := by
  simp only [List.mem_cons, List.not_mem_nil, or_false] at hb
  rcases hb with rfl | rfl <;>
    exact (StableHlo.after_of_forall_not_mem _ _ (List.forall_iff_forall_mem.mp (by
      simp only [hostOps2_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.Chain

end
-- ==== Proof.KerWalk.lean ====
/-
  The kernel program's buffers, boundary by boundary.

  @main alternates host stretches and pipelined regions; the generated frame names the buffer contents at the boundaries
  W0 (launch) … W9 (return).  A host stretch rewrites the buffers its operations write and leaves the rest; a region
  rewrites its output array (to what its write-backs leave) and leaves every buffer that is not one of its arrays.  Read
  here, at each boundary, are the live buffers only: the two endpoint vectors, the arguments still to be used, and each
  stage's result, each as the stage function of the live buffers one boundary earlier.
-/
import proofs.«146419_j84378927497589_2_alg».proof.Proof.Gen.KernelIdeal.Frame
import proofs.«146419_j84378927497589_2_alg».proof.Proof.KerChainStart
import proofs.«146419_j84378927497589_2_alg».proof.Proof.KerChainLayer1
import proofs.«146419_j84378927497589_2_alg».proof.Proof.KerChainLayer2
import proofs.«146419_j84378927497589_2_alg».proof.Proof.KerChainKept
import proofs.«146419_j84378927497589_2_alg».proof.Proof.KerChainEnd

set_option maxRecDepth 16384

noncomputable section

namespace Cert.KernelIdeal.Walk

open Cert.KernelIdeal Cert.KernelIdeal.Gen Cert.KernelIdeal.Stages Cert.KernelIdeal.Chain
open Idealize.ShloMosaic Idealize.ShloMosaic.TcCoe Idealize.SL.Sem

variable (m : (ℓ : Loc nD τ sig) → Buf (Elt Ideal) ℓ) (ρ : Dev nD → PrngReg) (c : Dev nD)

/-! ## Entering region 0 -/

theorem w1_arg (b : Ref sig .tc)
    (hb : b ∈ [main_arg0, main_arg1, main_arg2, main_arg3, main_arg4, main_arg5, main_arg6, main_arg7, main_arg8, main_arg9, main_arg10]) :
    W1 m ρ c (Proc.devRef .tc b) = m ((c : Thread nD τ).loc b) :=
  (kept0 (W0 m ρ c) b hb).trans rfl

theorem w1_src : W1 m ρ c (Proc.devRef .tc main_v1) = edgeSrc (m ((c : Thread nD τ).loc main_arg1)) := src0 (W0 m ρ c)
theorem w1_dst : W1 m ρ c (Proc.devRef .tc main_v3) = edgeDst (m ((c : Thread nD τ).loc main_arg1)) := dst0 (W0 m ρ c)

/-! ## Leaving region 0 -/

theorem w2_proj : W2 m ρ c (Proc.devRef .tc main_v4) = (dat0 (V1 m ρ) c).arrAt 2 cfg0.N := W2_arr m ρ c 2

theorem w2_keep (b : Ref sig .tc) (hb : b ∈ [main_v1, main_v3, main_arg2, main_arg4, main_arg5, main_arg6, main_arg7, main_arg8, main_arg9, main_arg10]) :
    W2 m ρ c (Proc.devRef .tc b) = W1 m ρ c (Proc.devRef .tc b) := by
  simp only [List.mem_cons, List.not_mem_nil, or_false] at hb
  rcases hb with rfl | rfl | rfl | rfl | rfl | rfl | rfl | rfl | rfl | rfl <;> exact W2_of_ne m ρ c _ (by decide)

/-! ## Entering region 1 -/

theorem w4_nodes : W4 m ρ c (Proc.devRef .tc main_v46)
    = gcn (W2 m ρ c (Proc.devRef .tc main_v4)) (W2 m ρ c (Proc.devRef .tc main_arg4))
        (W2 m ρ c (Proc.devRef .tc main_v1)) (W2 m ρ c (Proc.devRef .tc main_v3)) := layer1 (W2 m ρ c)

theorem w4_keep (b : Ref sig .tc) (hb : b ∈ [main_v1, main_v3, main_arg2, main_arg5, main_arg6, main_arg7, main_arg8, main_arg9, main_arg10]) :
    W4 m ρ c (Proc.devRef .tc b) = W2 m ρ c (Proc.devRef .tc b) := kept1 (W2 m ρ c) b hb

/-! ## Leaving region 1 -/

theorem w5_proj : W5 m ρ c (Proc.devRef .tc main_v47) = (dat1 (V4 m ρ) c).arrAt 2 cfg1.N := W5_arr m ρ c 2

theorem w5_keep (b : Ref sig .tc) (hb : b ∈ [main_v1, main_v3, main_arg2, main_arg6, main_arg7, main_arg8, main_arg9, main_arg10]) :
    W5 m ρ c (Proc.devRef .tc b) = W4 m ρ c (Proc.devRef .tc b) := by
  simp only [List.mem_cons, List.not_mem_nil, or_false] at hb
  rcases hb with rfl | rfl | rfl | rfl | rfl | rfl | rfl | rfl <;> exact W5_of_ne m ρ c _ (by decide)

/-! ## Entering region 2 -/

theorem w7_nodes : W7 m ρ c (Proc.devRef .tc main_v89)
    = gcn (W5 m ρ c (Proc.devRef .tc main_v47)) (W5 m ρ c (Proc.devRef .tc main_arg6))
        (W5 m ρ c (Proc.devRef .tc main_v1)) (W5 m ρ c (Proc.devRef .tc main_v3)) := layer2 (W5 m ρ c)

theorem w7_keep (b : Ref sig .tc) (hb : b ∈ [main_v1, main_v3, main_arg2, main_arg7, main_arg8, main_arg9, main_arg10]) :
    W7 m ρ c (Proc.devRef .tc b) = W5 m ρ c (Proc.devRef .tc b) := kept2 (W5 m ρ c) b hb

theorem w8_src : W8 m ρ c (Proc.devRef .tc main_v96)
    = endpoint (W7 m ρ c (Proc.devRef .tc main_v89)) (W7 m ρ c (Proc.devRef .tc main_v1)) := atSrc (W7 m ρ c)
theorem w8_dst : W8 m ρ c (Proc.devRef .tc main_v103)
    = endpoint (W7 m ρ c (Proc.devRef .tc main_v89)) (W7 m ρ c (Proc.devRef .tc main_v3)) := atDst (W7 m ρ c)
theorem w8_wSrc : W8 m ρ c (Proc.devRef .tc main_v104)
    = extractStridedSlice S64x64 ![0, 0] (W7 m ρ c (Proc.devRef .tc main_arg7)) slices_S144x64_S64x64_0_0 := wSrc (W7 m ρ c)
theorem w8_wDst : W8 m ρ c (Proc.devRef .tc main_v105)
    = extractStridedSlice S64x64 ![64, 0] (W7 m ρ c (Proc.devRef .tc main_arg7)) slices_S144x64_S64x64_64_0 := wDst (W7 m ρ c)
theorem w8_wEdge : W8 m ρ c (Proc.devRef .tc main_v106)
    = extractStridedSlice S16x64 ![128, 0] (W7 m ρ c (Proc.devRef .tc main_arg7)) slices_S144x64_S16x64_128_0 := wEdge (W7 m ρ c)
theorem w8_bRow1 : W8 m ρ c (Proc.devRef .tc main_v107)
    = shapeCast S1x64 (W7 m ρ c (Proc.devRef .tc main_arg8)) shapeCasts_S64_S1x64 := bRow1 (W7 m ρ c)
theorem w8_bRow2 : W8 m ρ c (Proc.devRef .tc main_v108)
    = shapeCast S1x2 (W7 m ρ c (Proc.devRef .tc main_arg10)) shapeCasts_S2_S1x2 := bRow2 (W7 m ρ c)
theorem w8_keep (b : Ref sig .tc) (hb : b ∈ [main_arg2, main_arg9]) :
    W8 m ρ c (Proc.devRef .tc b) = W7 m ρ c (Proc.devRef .tc b) := kept3 (W7 m ρ c) b hb

/-! ## Leaving region 2 -/

theorem w9_out : W9 m ρ c (Proc.devRef .tc main_v109) = (dat2 (V8 m ρ) c).arrAt 9 cfg2.N := W9_arr m ρ c 9

/-! ## An argument, or an endpoint vector, read at a later boundary is what it was at launch -/

theorem arg_at2 (b : Ref sig .tc) (hb : b ∈ [main_arg2, main_arg4, main_arg5, main_arg6, main_arg7, main_arg8, main_arg9, main_arg10]) :
    W2 m ρ c (Proc.devRef .tc b) = m ((c : Thread nD τ).loc b) := by
  simp only [List.mem_cons, List.not_mem_nil, or_false] at hb
  rcases hb with rfl | rfl | rfl | rfl | rfl | rfl | rfl | rfl <;>
    exact (w2_keep m ρ c _ (by simp)).trans (w1_arg m ρ c _ (by simp))

theorem src_at2 : W2 m ρ c (Proc.devRef .tc main_v1) = edgeSrc (m ((c : Thread nD τ).loc main_arg1)) :=
  (w2_keep m ρ c _ (by simp)).trans (w1_src m ρ c)
theorem dst_at2 : W2 m ρ c (Proc.devRef .tc main_v3) = edgeDst (m ((c : Thread nD τ).loc main_arg1)) :=
  (w2_keep m ρ c _ (by simp)).trans (w1_dst m ρ c)

theorem arg_at4 (b : Ref sig .tc) (hb : b ∈ [main_arg2, main_arg5, main_arg6, main_arg7, main_arg8, main_arg9, main_arg10]) :
    W4 m ρ c (Proc.devRef .tc b) = m ((c : Thread nD τ).loc b) := by
  simp only [List.mem_cons, List.not_mem_nil, or_false] at hb
  rcases hb with rfl | rfl | rfl | rfl | rfl | rfl | rfl <;>
    exact (w4_keep m ρ c _ (by simp)).trans (arg_at2 m ρ c _ (by simp))
theorem src_at4 : W4 m ρ c (Proc.devRef .tc main_v1) = edgeSrc (m ((c : Thread nD τ).loc main_arg1)) :=
  (w4_keep m ρ c _ (by simp)).trans (src_at2 m ρ c)
theorem dst_at4 : W4 m ρ c (Proc.devRef .tc main_v3) = edgeDst (m ((c : Thread nD τ).loc main_arg1)) :=
  (w4_keep m ρ c _ (by simp)).trans (dst_at2 m ρ c)

theorem arg_at5 (b : Ref sig .tc) (hb : b ∈ [main_arg2, main_arg6, main_arg7, main_arg8, main_arg9, main_arg10]) :
    W5 m ρ c (Proc.devRef .tc b) = m ((c : Thread nD τ).loc b) := by
  simp only [List.mem_cons, List.not_mem_nil, or_false] at hb
  rcases hb with rfl | rfl | rfl | rfl | rfl | rfl <;>
    exact (w5_keep m ρ c _ (by simp)).trans (arg_at4 m ρ c _ (by simp))
theorem src_at5 : W5 m ρ c (Proc.devRef .tc main_v1) = edgeSrc (m ((c : Thread nD τ).loc main_arg1)) :=
  (w5_keep m ρ c _ (by simp)).trans (src_at4 m ρ c)
theorem dst_at5 : W5 m ρ c (Proc.devRef .tc main_v3) = edgeDst (m ((c : Thread nD τ).loc main_arg1)) :=
  (w5_keep m ρ c _ (by simp)).trans (dst_at4 m ρ c)

theorem arg_at7 (b : Ref sig .tc) (hb : b ∈ [main_arg2, main_arg7, main_arg8, main_arg9, main_arg10]) :
    W7 m ρ c (Proc.devRef .tc b) = m ((c : Thread nD τ).loc b) := by
  simp only [List.mem_cons, List.not_mem_nil, or_false] at hb
  rcases hb with rfl | rfl | rfl | rfl | rfl <;>
    exact (w7_keep m ρ c _ (by simp)).trans (arg_at5 m ρ c _ (by simp))
theorem src_at7 : W7 m ρ c (Proc.devRef .tc main_v1) = edgeSrc (m ((c : Thread nD τ).loc main_arg1)) :=
  (w7_keep m ρ c _ (by simp)).trans (src_at5 m ρ c)
theorem dst_at7 : W7 m ρ c (Proc.devRef .tc main_v3) = edgeDst (m ((c : Thread nD τ).loc main_arg1)) :=
  (w7_keep m ρ c _ (by simp)).trans (dst_at5 m ρ c)

end Cert.KernelIdeal.Walk

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.NodeProj0.lean ====
/-
  The first node projection, from blocks to the array.

  The region multiplies the node-feature array X (50000 x 128) by the weight matrix W (128 x 64) in ten blocks of 5000
  rows: at point t the body reads rows t*5000 .. t*5000 + 4999 of X and all of W, and stores the product block, which is
  written back to rows t*5000 .. of the result.  Entry (p, q) of the block at point t is  Σ_k X(t*5000 + p, k) · W(k, q),
  which is entry (t*5000 + p, q) of the product of the whole arrays; the ten blocks fill the 50000 rows, so the result
  array ends holding the whole product.  Everything is stated for arbitrary contents V of the arrays at the region's entry.
-/
import proofs.«146419_j84378927497589_2_alg».proof.Proof.Gen.KernelIdeal.Frame
import proofs.«146419_j84378927497589_2_alg».proof.Proof.Gen.ReferenceIdeal
import proofs.«146419_j84378927497589_2_alg».proof.ReferenceIdeal
import proofs.«146419_j84378927497589_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProj0

open Idealize.ShloMosaic Idealize.ShloMosaic.TcCoe Idealize.ShloMosaic.ValueIdx Idealize.SL.Sem
open Cert.KernelIdeal Cert.KernelIdeal.Gen
open Cert.PlainMatmul

-- the contents of the arrays when the region is entered
variable (V : (c : Dev nD) → (b : Ref sig .tc) → Buf (Elt Ideal) ((c : Thread nD τ).loc b))

/-- Entry (p, q) of the body's stored block: the product of the left block's row p with the right block's column q. -/
theorem payload_apply (x0 : Vec Ideal S5000x128 .f32) (x1 : Vec Ideal S128x64 .f32) (p : Fin 5000) (q : Fin 64) :
    Gen.k0_pay1 x0 x1 (ix2 p q) = ∑ k : Fin 128, x0 (ix2 p k) * x1 (ix2 k q) := by
  unfold Gen.k0_pay1
  exact matmul_zero_apply dot_S5000x128_S128x64_S5000x64_1_0_0_1_n_n.wf none x0 x1 p q

/-- Entry (r, q) of the host's product of the whole arrays. -/
theorem host_apply (X : FVec Ideal S50000x128 .f32) (W : FVec Ideal S128x64 .f32) (r : Fin 50000) (q : Fin 64) :
    Host.dotGeneral (F := Ideal) (φ₁ := .f32) (φ₂ := .f32) Cert.ReferenceIdeal.dot_S50000x128_S128x64_S50000x64_1_0_0_1_n_n none X W (ix2 r q)
      = ∑ k : Fin 128, X (ix2 r k) * W (ix2 k q) := by
  simp only [Host.dotGeneral]
  exact dotGeneral_apply Cert.ReferenceIdeal.dot_S50000x128_S128x64_S50000x64_1_0_0_1_n_n.wf none _ X W r q

theorem zero_offsets : (![0, 0] : Fin 2 → Nat) = fun _ => 0 := funext fun a => by fin_cases a <;> rfl

/-- The printed index maps over the grid: the row block of the left operand and of the result is the point's number,
    every other block index is zero. -/
theorem index_maps : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the product of the whole arrays as the region finds them. -/
theorem flushed_eq (c : Dev nD) (t : Fin cfg0.N) :
    (Gen.dat0 (F := Ideal) V c).flushed 2 t = ((cfg0.win 2).blk t).view.read (Elt Ideal)
      (Host.dotGeneral (F := Ideal) (φ₁ := .f32) (φ₂ := .f32) Cert.ReferenceIdeal.dot_S50000x128_S128x64_S50000x64_1_0_0_1_n_n none (V c main_arg0) (V c main_arg3)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x128) zero_offsets, View.ld_unit_zero (S := S128x64) zero_offsets]
  obtain ⟨e0, e1, e2, e3, e4, e5⟩ := index_maps t
  funext j
  obtain ⟨p, q, rfl⟩ : ∃ (p : Fin 5000) (q : Fin 64), j = ix2 p q := ⟨j 0, j 1, eq_ix2 j⟩
  have hN : cfg0.N = 10 := N_0
  have ht : t.val < cfg0.N := t.isLt
  have hp : p.val < 5000 := p.isLt
  have hr : t.val * 5000 + p.val < 50000 := by omega
  -- where the block's entry (p, q) sits in the result array: row t * 5000 + p, column q
  have hout : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  refine (payload_apply _ _ p q).trans ?_
  refine Eq.trans ?_ (congrArg (Host.dotGeneral (F := Ideal) (φ₁ := .f32) (φ₂ := .f32) Cert.ReferenceIdeal.dot_S50000x128_S128x64_S50000x64_1_0_0_1_n_n none (V c main_arg0) (V c main_arg3)) hout.symm)
  refine Eq.trans ?_ (host_apply _ _ _ q).symm
  refine Finset.sum_congr rfl fun k _ => ?_
  -- the left block's entry (p, k) is the left array's entry (t * 5000 + p, k); the right block is the whole right array
  have hl : ((cfg0.win 0).blk t).view.emb (ix2 p k) = ix2 (⟨t.val * 5000 + p.val, hr⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  exact congrArg₂ (fun a b : EReal => a * b) (congrArg (V c main_arg0) hl) (congrArg (V c main_arg3) hw)

/-- An index of the result array is in point `t`'s block iff each coordinate is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every row of the result lies in the block of the point numbered by the row's quotient by the block height:
    the ten blocks of 5000 rows fill the 50000 rows. -/
theorem blocks_cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5⟩ := index_maps t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE RESULT ARRAY after all ten points is the product of the whole arrays the region was entered with. -/
theorem region0_value (c : Dev nD) :
    (Gen.dat0 (F := Ideal) V c).arrAt 2 cfg0.N
      = Host.dotGeneral (F := Ideal) (φ₁ := .f32) (φ₂ := .f32) Cert.ReferenceIdeal.dot_S50000x128_S128x64_S50000x64_1_0_0_1_n_n none (V c main_arg0) (V c main_arg3) :=
  (Gen.dat0 (F := Ideal) V c).arrAt_eq_of_cover 2 _ (fun t _ => flushed_eq V c t) blocks_cover

end Cert.KernelIdeal.NodeProj0
end
-- ==== Proof.NodeProj1.lean ====
/-
  The second node projection, from blocks to the array.

  The region multiplies the hidden node array H (50000 x 64) by the weight matrix W (64 x 64) in ten blocks of 5000
  rows: at point t the body reads rows t*5000 .. t*5000 + 4999 of H and all of W, and stores the product block, which is
  written back to rows t*5000 .. of the result.  Entry (p, q) of the block at point t is  Σ_k H(t*5000 + p, k) · W(k, q),
  which is entry (t*5000 + p, q) of the product of the whole arrays; the ten blocks fill the 50000 rows, so the result
  array ends holding the whole product.  Everything is stated for arbitrary contents V of the arrays at the region's entry.
-/
import proofs.«146419_j84378927497589_2_alg».proof.Proof.Gen.KernelIdeal.Frame
import proofs.«146419_j84378927497589_2_alg».proof.Proof.Gen.ReferenceIdeal
import proofs.«146419_j84378927497589_2_alg».proof.ReferenceIdeal
import proofs.«146419_j84378927497589_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeProj1

open Idealize.ShloMosaic Idealize.ShloMosaic.TcCoe Idealize.ShloMosaic.ValueIdx Idealize.SL.Sem
open Cert.KernelIdeal Cert.KernelIdeal.Gen
open Cert.PlainMatmul

-- the contents of the arrays when the region is entered
variable (V : (c : Dev nD) → (b : Ref sig .tc) → Buf (Elt Ideal) ((c : Thread nD τ).loc b))

/-- Entry (p, q) of the body's stored block: the product of the left block's row p with the right block's column q
    (the body's reshape of the left block to its own shape changes nothing). -/
theorem payload_apply (x0 : Vec Ideal S5000x64 .f32) (x1 : Vec Ideal S64x64 .f32) (p : Fin 5000) (q : Fin 64) :
    Gen.k1_pay1 x0 x1 (ix2 p q) = ∑ k : Fin 64, x0 (ix2 p k) * x1 (ix2 k q) := by
  unfold Gen.k1_pay1
  simp only [shapeCast_self]
  exact matmul_zero_apply dot_S5000x64_S64x64_S5000x64_1_0_0_1_n_n.wf none x0 x1 p q

/-- Entry (r, q) of the host's product of the whole arrays. -/
theorem host_apply (X : FVec Ideal S50000x64 .f32) (W : FVec Ideal S64x64 .f32) (r : Fin 50000) (q : Fin 64) :
    Host.dotGeneral (F := Ideal) (φ₁ := .f32) (φ₂ := .f32) Cert.ReferenceIdeal.dot_S50000x64_S64x64_S50000x64_1_0_0_1_n_n none X W (ix2 r q)
      = ∑ k : Fin 64, X (ix2 r k) * W (ix2 k q) := by
  simp only [Host.dotGeneral]
  exact dotGeneral_apply Cert.ReferenceIdeal.dot_S50000x64_S64x64_S50000x64_1_0_0_1_n_n.wf none _ X W r q

theorem zero_offsets : (![0, 0] : Fin 2 → Nat) = fun _ => 0 := funext fun a => by fin_cases a <;> rfl

/-- The printed index maps over the grid: the row block of the left operand and of the result is the point's number,
    every other block index is zero. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT `t` WRITES BACK is block `t` of the product of the whole arrays as the region finds them. -/
theorem flushed_eq (c : Dev nD) (t : Fin cfg1.N) :
    (Gen.dat1 (F := Ideal) V c).flushed 2 t = ((cfg1.win 2).blk t).view.read (Elt Ideal)
      (Host.dotGeneral (F := Ideal) (φ₁ := .f32) (φ₂ := .f32) Cert.ReferenceIdeal.dot_S50000x64_S64x64_S50000x64_1_0_0_1_n_n none (V c main_v46) (V c main_arg5)) := by
  show (cfg1.win 2).cut (grid1.coords t) ((Gen.dat1 (F := Ideal) V c).after 2 t) = _
  rw [Gen.after1_2]
  unfold Gen.out1_2
  rw [View.canon_unit_zero zero_offsets]
  simp only [View.ld_unit_zero (S := S5000x64) zero_offsets, View.ld_unit_zero (S := S64x64) zero_offsets]
  obtain ⟨e0, e1, e2, e3, e4, e5⟩ := index_maps t
  funext j
  obtain ⟨p, q, rfl⟩ : ∃ (p : Fin 5000) (q : Fin 64), j = ix2 p q := ⟨j 0, j 1, eq_ix2 j⟩
  have hN : cfg1.N = 10 := N_1
  have ht : t.val < cfg1.N := t.isLt
  have hp : p.val < 5000 := p.isLt
  have hr : t.val * 5000 + p.val < 50000 := by omega
  -- where the block's entry (p, q) sits in the result array: row t * 5000 + p, column q
  have hout : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  refine (payload_apply _ _ p q).trans ?_
  refine Eq.trans ?_ (congrArg (Host.dotGeneral (F := Ideal) (φ₁ := .f32) (φ₂ := .f32) Cert.ReferenceIdeal.dot_S50000x64_S64x64_S50000x64_1_0_0_1_n_n none (V c main_v46) (V c main_arg5)) hout.symm)
  refine Eq.trans ?_ (host_apply _ _ _ q).symm
  refine Finset.sum_congr rfl fun k _ => ?_
  -- the left block's entry (p, k) is the left array's entry (t * 5000 + p, k); the right block is the whole right array
  have hl : ((cfg1.win 0).blk t).view.emb (ix2 p k) = ix2 (⟨t.val * 5000 + p.val, hr⟩ : Fin 50000) k := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have hw : ((cfg1.win 1).blk t).view.emb (ix2 k q) = ix2 k q := by
    funext a; apply Fin.ext
    match a with
    | ⟨0, _⟩ => show win1_1.index t (0 : Fin 2) * 64 + 1 * k.val = k.val; omega
    | ⟨1, _⟩ => show win1_1.index t (1 : Fin 2) * 64 + 1 * q.val = q.val; omega
  exact congrArg₂ (fun a b : EReal => a * b) (congrArg (V c main_v46) hl) (congrArg (V c main_arg5) hw)

/-- An index of the result array is in point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every row of the result lies in the block of the point numbered by the row's quotient by the block height:
    the ten blocks of 5000 rows fill the 50000 rows. -/
theorem blocks_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5⟩ := index_maps t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE RESULT ARRAY after all ten points is the product of the whole arrays the region was entered with. -/
theorem region1_value (c : Dev nD) :
    (Gen.dat1 (F := Ideal) V c).arrAt 2 cfg1.N
      = Host.dotGeneral (F := Ideal) (φ₁ := .f32) (φ₂ := .f32) Cert.ReferenceIdeal.dot_S50000x64_S64x64_S50000x64_1_0_0_1_n_n none (V c main_v46) (V c main_arg5) :=
  (Gen.dat1 (F := Ideal) V c).arrAt_eq_of_cover 2 _ (fun t _ => flushed_eq V c t) blocks_cover

end Cert.KernelIdeal.NodeProj1
end
-- ==== Proof.EdgeSpec.lean ====
/-
  The edge classifier's two-layer perceptron on the extended reals, one edge at a time.

  An edge e carries the two endpoint embeddings hs(e, ·), hd(e, ·) (64 entries each) and its own 16 features ea(e, ·).
  The first layer's weight matrix has 144 = 64 + 64 + 16 rows; taken as three row blocks ws, wd, we the hidden unit j is
      max( Σ_k hs(e,k)·ws(k,j) + Σ_k hd(e,k)·wd(k,j) + Σ_k ea(e,k)·we(k,j) + b1(j), 0 )
  and the output unit o is  Σ_j hidden(e,j)·w2(j,o) + b2(o).  The biases are rows of one-row matrices.
  Only commutativity and associativity of + are ever used on these sums, so the formulas are total on the
  extended reals: nothing here asks an entry to be finite.
-/
import Idealize.ShloMosaic.PureOps.Ideal
import Idealize.ShloMosaic.Lib.ValueIdx

noncomputable section

namespace Cert.EdgeMlp

open Idealize.ShloMosaic Idealize.ShloMosaic.ValueIdx

variable {E : ℕ}

/-- Hidden unit `j` of edge `e`: the three partial products, the bias, the rectifier. -/
def hidden (hs hd : (⟨2, ![E, 64]⟩ : Shape).Idx → EReal) (ea : (⟨2, ![E, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (e : Fin E) (j : Fin 64) : EReal :=
  max ((((∑ k : Fin 64, hs (ix2 e k) * ws (ix2 k j)) + ∑ k : Fin 64, hd (ix2 e k) * wd (ix2 k j))
      + ∑ k : Fin 16, ea (ix2 e k) * we (ix2 k j)) + b1 (ix2 (0 : Fin 1) j)) 0

/-- Output unit `o` of edge `e`. -/
def logit (hs hd : (⟨2, ![E, 64]⟩ : Shape).Idx → EReal) (ea : (⟨2, ![E, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (w2 : (⟨2, ![64, 2]⟩ : Shape).Idx → EReal)
    (b2 : (⟨2, ![1, 2]⟩ : Shape).Idx → EReal) (e : Fin E) (o : Fin 2) : EReal :=
  (∑ j : Fin 64, hidden hs hd ea ws wd we b1 e j * w2 (ix2 j o)) + b2 (ix2 (0 : Fin 1) o)

/-- The whole output array: entry (e, o) is `logit … e o`. -/
def logits (hs hd : (⟨2, ![E, 64]⟩ : Shape).Idx → EReal) (ea : (⟨2, ![E, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (w2 : (⟨2, ![64, 2]⟩ : Shape).Idx → EReal)
    (b2 : (⟨2, ![1, 2]⟩ : Shape).Idx → EReal) : (⟨2, ![E, 2]⟩ : Shape).Idx → EReal :=
  fun i => logit hs hd ea ws wd we b1 w2 b2 (i 0) (i 1)

/-- An edge's output depends only on that edge's rows: if two triples of feature arrays agree on row `e` / `e'`, the
    outputs agree. (A block of rows cut out of the arrays computes the same entries as the arrays themselves.) -/
theorem logit_congr {E' : ℕ} (hs hd : (⟨2, ![E, 64]⟩ : Shape).Idx → EReal) (ea : (⟨2, ![E, 16]⟩ : Shape).Idx → EReal)
    (hs' hd' : (⟨2, ![E', 64]⟩ : Shape).Idx → EReal) (ea' : (⟨2, ![E', 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (w2 : (⟨2, ![64, 2]⟩ : Shape).Idx → EReal)
    (b2 : (⟨2, ![1, 2]⟩ : Shape).Idx → EReal) (e : Fin E) (e' : Fin E') (o : Fin 2)
    (h1 : ∀ k : Fin 64, hs (ix2 e k) = hs' (ix2 e' k)) (h2 : ∀ k : Fin 64, hd (ix2 e k) = hd' (ix2 e' k))
    (h3 : ∀ k : Fin 16, ea (ix2 e k) = ea' (ix2 e' k)) :
    logit hs hd ea ws wd we b1 w2 b2 e o = logit hs' hd' ea' ws wd we b1 w2 b2 e' o := by
  unfold logit hidden
  simp only [h1, h2, h3]

end Cert.EdgeMlp

end
-- ==== Proof.EdgeBlock.lean ====
/-
  The fused edge perceptron's block, read at an entry.

  One grid point of the third region holds 5000 edges: their two endpoint embeddings (5000 x 64 each), their own features
  (5000 x 16), and the whole weight and bias arrays. The body rounds every operand to bf16 (the identity on the extended
  reals), forms the three partial products of the first layer as matrix products into a zero accumulator, adds them left to
  right, adds the bias row to every edge's row, takes the maximum with zero, multiplies by the second layer's weights and adds
  its bias row. Read at (p, o) this is the textbook formula `Cert.EdgeMlp.logit` of edge p of the block, unit o:
  each matrix product at an entry is the sum over the contracted axis, and a one-row array broadcast down the rows reads
  its one row.
-/
import proofs.«146419_j84378927497589_2_alg».proof.Proof.Gen.KernelIdeal.Skeleton
import proofs.«146419_j84378927497589_2_alg».proof.Proof.LibPlainMatmul
import proofs.«146419_j84378927497589_2_alg».proof.Proof.EdgeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeBlock

open Idealize.ShloMosaic Idealize.ShloMosaic.TcCoe Idealize.ShloMosaic.ValueIdx Idealize.SL.Sem Cert.KernelIdeal Cert.KernelIdeal.Gen

/-- Entry (p, q) of a 5000 x 64 by 64 x 64 product into the zero accumulator: the sum over the 64 contracted positions. -/
theorem matmul_64_64_apply {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.PlainMatmul.matmul_zero_apply dot_S5000x64_S64x64_S5000x64_1_0_0_1_n_n_wf none l r p q

/-- Entry (p, q) of a 5000 x 16 by 16 x 64 product into the zero accumulator: the sum over the 16 contracted positions. -/
theorem matmul_16_64_apply {φ₁ φ₂ : FTy} (l : FVec Ideal S5000x16 φ₁) (r : FVec Ideal S16x64 φ₂) (p : Fin 5000) (q : Fin 64) :
    matmul dot_S5000x16_S16x64_S5000x64_1_0_0_1_n_n none l r (constant (F := Ideal) S5000x64 .f32 0x00000000#32) (ix2 p q)
      = ∑ k : Fin 16, l (ix2 p k) * r (ix2 k q) :=
  Cert.PlainMatmul.matmul_zero_apply dot_S5000x16_S16x64_S5000x64_1_0_0_1_n_n_wf none l r p q

/-- Entry (p, q) of a 5000 x 64 by 64 x 2 product into the zero accumulator: the sum over the 64 contracted positions. -/
theorem matmul_64_2_apply {φ₁ φ₂ : FTy} (l : FVec Ideal S5000x64 φ₁) (r : FVec Ideal S64x2 φ₂) (p : Fin 5000) (q : Fin 2) :
    matmul dot_S5000x64_S64x2_S5000x2_1_0_0_1_n_n none l r (constant (F := Ideal) S5000x2 .f32 0x00000000#32) (ix2 p q)
      = ∑ k : Fin 64, l (ix2 p k) * r (ix2 k q) :=
  Cert.PlainMatmul.matmul_zero_apply dot_S5000x64_S64x2_S5000x2_1_0_0_1_n_n_wf none l r p q

/-- Entry (p, o) of the block the body stores is output unit o of edge p of the block, as the specification writes it:
    rounding to bf16 and the same-shape casts are the identity on the extended reals, each matrix product into the zero
    accumulator is the sum over its contracted axis, the one-row bias arrays read their one row, and the zero the
    rectifier compares against is the number 0. -/
theorem payload_apply (v0 v3 : Vec Ideal S5000x64 .f32) (v6 : Vec Ideal S5000x16 .f32) (v8 v11 : Vec Ideal S64x64 .f32)
    (v14 : Vec Ideal S16x64 .f32) (v22 : Vec Ideal S1x64 .f32) (v29 : Vec Ideal S64x2 .f32) (v32 : Vec Ideal S1x2 .f32)
    (p : Fin 5000) (o : Fin 2) :
    Gen.k2_pay1 (F := Ideal) v0 v3 v6 v8 v11 v14 v22 v29 v32 (ix2 p o)
      = Cert.EdgeMlp.logit (E := 5000) v0 v3 v6 v8 v11 v14 v22 v29 v32 p o := by
  unfold Cert.EdgeMlp.logit Cert.EdgeMlp.hidden Gen.k2_pay1
  simp only [shapeCast_self]
  -- the second layer: a product into the zero accumulator plus the bias row
  rw [addf_apply, matmul_64_2_apply, broadcastTo_1b_ab_apply]
  congr 1
  refine Finset.sum_congr rfl fun j _ => ?_
  -- the first layer at hidden unit j: three products added left to right, the bias row, the rectifier
  rw [truncf_apply, truncf_apply, maximumf_apply, addf_apply, addf_apply, addf_apply, matmul_64_64_apply, matmul_64_64_apply,
    matmul_16_64_apply, broadcastTo_1b_ab_apply, broadcast_apply]
  simp only [truncf_apply, Ideal.ofBits_def, Ideal.ofBits_zero_f32]

end Cert.KernelIdeal.EdgeBlock

end
-- ==== Proof.EdgeRegion.lean ====
/-
  The fused edge perceptron's region: from the blocks to the whole array.

  The third region walks 160 grid points. At point t the three edge windows (the two endpoint embeddings, 5000 x 64 each, and
  the edge features, 5000 x 16) stand on rows 5000 t … 5000 t + 4999 of their arrays, the six weight and bias windows on their
  whole arrays, and the output window on the same 5000 rows of the 800000 x 2 result. An edge's output reads only that
  edge's own rows, so entry (p, o) of the block the body stores — the specification's formula of the BLOCKS at (p, o) — is
  the specification's formula of the whole ARRAYS at (5000 t + p, o). Every point writes its block back and the 160 blocks
  fill the result's rows, so after the last point the result array is the specification's array, whatever the arrays held
  when the region was entered.
-/
import proofs.«146419_j84378927497589_2_alg».proof.Proof.Gen.KernelIdeal.Frame
import proofs.«146419_j84378927497589_2_alg».proof.Proof.EdgeBlock
import proofs.«146419_j84378927497589_2_alg».proof.Proof.EdgeSpec
import Idealize.ShloMosaic.Lib.Pipeline.Value
import Idealize.ShloMosaic.Lib.ValueIdx

set_option maxRecDepth 16384

noncomputable section

namespace Cert.KernelIdeal.EdgeRegion

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- Every rectangle the body loads or stores through starts at the origin of its buffer. -/
theorem origin : (![0, 0] : Fin 2 → Nat) = fun _ => 0 := funext fun a => by fin_cases a <;> rfl

/-- The printed index maps, decided once over the 160 grid points: the three edge windows and the output window sit at row
    block t, column block 0; the six weight and bias windows at block (0, 0). -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-- Row p of point t's block is row 5000 t + p of the array. -/
def row (t : Fin cfg2.N) (p : Fin 5000) : Fin 800000 :=
  ⟨t.val * 5000 + p.val, by have h : cfg2.N = 160 := N_2; have := t.isLt; have := p.isLt; omega⟩

/-- The source-embedding window's block at point t holds rows 5000 t … 5000 t + 4999 of its array. -/
theorem src_block (c : Dev nD) (t : Fin cfg2.N) (p : Fin 5000) (k : Fin 64) :
    (iblk2 V c 0 t : Vec Ideal S5000x64 .f32) (ix2 p k) = (V c main_v96 : S800000x64.Idx → EReal) (ix2 (row t p) k) := by
  obtain ⟨⟨e0, e1⟩, -⟩ := block_indices t
  unfold iblk2
  rw [View.read_apply]
  show V c main_v96 _ = V c main_v96 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The destination-embedding window's block at point t holds the same rows of its array. -/
theorem dst_block (c : Dev nD) (t : Fin cfg2.N) (p : Fin 5000) (k : Fin 64) :
    (iblk2 V c 1 t : Vec Ideal S5000x64 .f32) (ix2 p k) = (V c main_v103 : S800000x64.Idx → EReal) (ix2 (row t p) k) := by
  obtain ⟨-, ⟨e0, e1⟩, -⟩ := block_indices t
  unfold iblk2
  rw [View.read_apply]
  show V c main_v103 _ = V c main_v103 _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 64 + 1 * k.val = k.val; rw [e1]; omega

/-- The edge-feature window's block at point t holds the same rows of its array. -/
theorem feat_block (c : Dev nD) (t : Fin cfg2.N) (p : Fin 5000) (k : Fin 16) :
    (iblk2 V c 2 t : Vec Ideal S5000x16 .f32) (ix2 p k) = (V c main_arg2 : S800000x16.Idx → EReal) (ix2 (row t p) k) := by
  obtain ⟨-, -, ⟨e0, e1⟩, -⟩ := block_indices t
  unfold iblk2
  rw [View.read_apply]
  show V c main_arg2 _ = V c main_arg2 _
  congr 1
  funext a
  apply Fin.ext
  match a with
  | ⟨0, _⟩ => show win2_2.index t (0 : Fin 2) * 5000 + 1 * p.val = t.val * 5000 + p.val; rw [e0]; omega
  | ⟨1, _⟩ => show win2_2.index t (1 : Fin 2) * 16 + 1 * k.val = k.val; rw [e1]; omega

/-- A window whose block is its whole array reads the array itself (block index zero on both axes): the first layer's
    weights for the source embedding, -/
theorem whole_3 (c : Dev nD) (t : Fin cfg2.N) : (iblk2 V c 3 t : Vec Ideal S64x64 .f32) = V c main_v104 := by
  obtain ⟨-, -, -, ⟨e0, e1⟩, -⟩ := block_indices t
  funext y
  unfold iblk2
  rw [View.read_apply]
  show V c main_v104 _ = V c main_v104 y
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- for the destination embedding, -/
theorem whole_4 (c : Dev nD) (t : Fin cfg2.N) : (iblk2 V c 4 t : Vec Ideal S64x64 .f32) = V c main_v105 := by
  obtain ⟨-, -, -, -, ⟨e0, e1⟩, -⟩ := block_indices t
  funext y
  unfold iblk2
  rw [View.read_apply]
  show V c main_v105 _ = V c main_v105 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- for the edge features, -/
theorem whole_5 (c : Dev nD) (t : Fin cfg2.N) : (iblk2 V c 5 t : Vec Ideal S16x64 .f32) = V c main_v106 := by
  obtain ⟨-, -, -, -, -, ⟨e0, e1⟩, -⟩ := block_indices t
  funext y
  unfold iblk2
  rw [View.read_apply]
  show V c main_v106 _ = V c main_v106 y
  congr 1
  funext a
  apply Fin.ext
  match a with
  | ⟨0, _⟩ => show win2_5.index t (0 : Fin 2) * 16 + 1 * (y 0).val = (y 0).val; rw [e0]; omega
  | ⟨1, _⟩ => show win2_5.index t (1 : Fin 2) * 64 + 1 * (y 1).val = (y 1).val; rw [e1]; omega

/-- the first layer's bias row, -/
theorem whole_6 (c : Dev nD) (t : Fin cfg2.N) : (iblk2 V c 6 t : Vec Ideal S1x64 .f32) = V c main_v107 := by
  obtain ⟨-, -, -, -, -, -, ⟨e0, e1⟩, -⟩ := block_indices t
  funext y
  unfold iblk2
  rw [View.read_apply]
  show V c main_v107 _ = V c main_v107 y
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

/-- the second layer's weights, -/
theorem whole_7 (c : Dev nD) (t : Fin cfg2.N) : (iblk2 V c 7 t : Vec Ideal S64x2 .f32) = V c main_arg9 := by
  obtain ⟨-, -, -, -, -, -, -, ⟨e0, e1⟩, -⟩ := block_indices t
  funext y
  unfold iblk2
  rw [View.read_apply]
  show V c main_arg9 _ = V c main_arg9 y
  congr 1
  funext a
  apply Fin.ext
  match a with
  | ⟨0, _⟩ => show win2_7.index t (0 : Fin 2) * 64 + 1 * (y 0).val = (y 0).val; rw [e0]; omega
  | ⟨1, _⟩ => show win2_7.index t (1 : Fin 2) * 2 + 1 * (y 1).val = (y 1).val; rw [e1]; omega

/-- and the second layer's bias row. -/
theorem whole_8 (c : Dev nD) (t : Fin cfg2.N) : (iblk2 V c 8 t : Vec Ideal S1x2 .f32) = V c main_v108 := by
  obtain ⟨-, -, -, -, -, -, -, -, ⟨e0, e1⟩, -⟩ := block_indices t
  funext y
  unfold iblk2
  rw [View.read_apply]
  show V c main_v108 _ = V c main_v108 y
  congr 1
  funext a
  apply Fin.ext
  match a with
  | ⟨0, _⟩ => show win2_8.index t (0 : Fin 2) * 1 + 1 * (y 0).val = (y 0).val; rw [e0]; omega
  | ⟨1, _⟩ => show win2_8.index t (1 : Fin 2) * 2 + 1 * (y 1).val = (y 1).val; rw [e1]; omega

/-- One entry of a block, over variables: if the block's three edge arrays hold rows of the big arrays and the weight blocks
    are the weight arrays, the body's entry (p, o) is the specification's entry (e, o). -/
theorem block_entry (hs hd : S800000x64.Idx → EReal) (ea : S800000x16.Idx → EReal)
    (ws wd : S64x64.Idx → EReal) (we : S16x64.Idx → EReal) (b1 : S1x64.Idx → EReal) (w2 : S64x2.Idx → EReal) (b2 : S1x2.Idx → EReal)
    (x0 x1 : Vec Ideal S5000x64 .f32) (x2 : Vec Ideal S5000x16 .f32) (x3 x4 : Vec Ideal S64x64 .f32) (x5 : Vec Ideal S16x64 .f32)
    (x6 : Vec Ideal S1x64 .f32) (x7 : Vec Ideal S64x2 .f32) (x8 : Vec Ideal S1x2 .f32)
    (e : Fin 800000) (p : Fin 5000) (o : Fin 2)
    (h0 : ∀ k : Fin 64, x0 (ix2 p k) = hs (ix2 e k)) (h1 : ∀ k : Fin 64, x1 (ix2 p k) = hd (ix2 e k))
    (h2 : ∀ k : Fin 16, x2 (ix2 p k) = ea (ix2 e k))
    (h3 : x3 = ws) (h4 : x4 = wd) (h5 : x5 = we) (h6 : x6 = b1) (h7 : x7 = w2) (h8 : x8 = b2) :
    Gen.k2_pay1 (F := Ideal) x0 x1 x2 x3 x4 x5 x6 x7 x8 (ix2 p o)
      = Cert.EdgeMlp.logit (E := 800000) hs hd ea ws wd we b1 w2 b2 e o := by
  subst h3 h4 h5 h6 h7 h8
  exact (EdgeBlock.payload_apply x0 x1 x2 x3 x4 x5 x6 x7 x8 p o).trans
    (Cert.EdgeMlp.logit_congr _ _ _ _ _ _ _ _ _ _ _ _ p e o h0 h1 h2)

/-- What point t writes back is block t of the specification's array of the arrays as the region finds them: the body's
    one store fills the staging buffer with its payload of the input blocks, and entry (p, o) of that payload is the
    specification at row 5000 t + p. -/
theorem written_block (c : Dev nD) (t : Fin cfg2.N) :
    (dat2 V c).flushed 9 t = ((cfg2.win 9).blk t).view.read (Elt Ideal)
      (Cert.EdgeMlp.logits (E := 800000) (V c main_v96) (V c main_v103) (V c main_arg2) (V c main_v104) (V c main_v105)
        (V c main_v106) (V c main_v107) (V c main_arg9) (V c main_v108)) := by
  show (cfg2.win 9).cut (grid2.coords t) ((dat2 V c).after 9 t) = _
  rw [after2_9]
  unfold out2_9
  rw [View.canon_unit_zero origin]
  simp only [View.ld_unit_zero (S := S5000x64) origin, View.ld_unit_zero (S := S5000x16) origin,
    View.ld_unit_zero (S := S64x64) origin, View.ld_unit_zero (S := S16x64) origin, View.ld_unit_zero (S := S1x64) origin,
    View.ld_unit_zero (S := S64x2) origin, View.ld_unit_zero (S := S1x2) origin]
  funext j
  obtain ⟨p, o, rfl⟩ : ∃ (p : Fin 5000) (o : Fin 2), j = ix2 p o := ⟨j 0, j 1, eq_ix2 j⟩
  obtain ⟨-, -, -, -, -, -, -, -, -, e0, e1⟩ := block_indices t
  have hemb : ((cfg2.win 9).blk t).view.emb (ix2 p o) = (ix2 (row t p) o : S800000x2.Idx) := by
    funext a
    apply Fin.ext
    match a with
    | ⟨0, _⟩ => show win2_9.index t (0 : Fin 2) * 5000 + 1 * p.val = t.val * 5000 + p.val; rw [e0]; omega
    | ⟨1, _⟩ => show win2_9.index t (1 : Fin 2) * 2 + 1 * o.val = o.val; rw [e1]; omega
  show Gen.k2_pay1 (F := Ideal) (iblk2 V c 0 t) (iblk2 V c 1 t) (iblk2 V c 2 t) (iblk2 V c 3 t) (iblk2 V c 4 t) (iblk2 V c 5 t)
      (iblk2 V c 6 t) (iblk2 V c 7 t) (iblk2 V c 8 t) (ix2 p o)
    = Cert.EdgeMlp.logits (E := 800000) (V c main_v96) (V c main_v103) (V c main_arg2) (V c main_v104) (V c main_v105)
        (V c main_v106) (V c main_v107) (V c main_arg9) (V c main_v108) (((cfg2.win 9).blk t).view.emb (ix2 p o))
  rw [hemb]
  exact block_entry _ _ _ _ _ _ _ _ _ _ _ _ _ _ _ _ _ _ (row t p) p o (src_block V c t p) (dst_block V c t p) (feat_block V c t p)
    (whole_3 V c t) (whole_4 V c t) (whole_5 V c t) (whole_6 V c t) (whole_7 V c t) (whole_8 V c t)

/-- An index of the output array is in point t's block iff each coordinate is in the block's range on its axis. -/
theorem mem_block (t : Fin cfg2.N) (i : S800000x2.Idx) :
    i ∈ ((cfg2.win 9).blk t).view.set ↔ ∀ a : Fin 2, win2_9.index t a * S5000x2.size a ≤ (i a).val
      ∧ (i a).val < win2_9.index t a * S5000x2.size a + S5000x2.size a := by
  show i ∈ ((View.whole main_v109).slice (win2_9.rect t)).set ↔ _
  rw [View.set_slice_whole, Rect.mem_set_unit]
  exact Iff.rfl

/-- Every index of the output array is in the block of the point numbered by its row divided by 5000, and every point
    writes its block back: 160 blocks of 5000 rows fill the 800000 rows. -/
theorem rows_covered (i : S800000x2.Idx) :
    ∃ t : Fin cfg2.N, (cfg2.win 9).flush t = true ∧ i ∈ ((cfg2.win 9).blk t).view.set := by
  have hN : cfg2.N = 160 := N_2
  have hi0 : (i 0).val < 800000 := (i 0).isLt
  have hi1 : (i 1).val < 2 := (i 1).isLt
  obtain ⟨t, ht⟩ : ∃ t : Fin cfg2.N, t.val = (i 0).val / 5000 := ⟨⟨(i 0).val / 5000, by omega⟩, rfl⟩
  obtain ⟨-, -, -, -, -, -, -, -, -, e0, e1⟩ := block_indices t
  refine ⟨t, flush2_9 t, ?_⟩
  rw [mem_block]
  intro a
  match a with
  | ⟨0, _⟩ =>
    show win2_9.index t (0 : Fin 2) * 5000 ≤ (i 0).val ∧ (i 0).val < win2_9.index t (0 : Fin 2) * 5000 + 5000
    rw [e0]; omega
  | ⟨1, _⟩ =>
    show win2_9.index t (1 : Fin 2) * 2 ≤ (i 1).val ∧ (i 1).val < win2_9.index t (1 : Fin 2) * 2 + 2
    rw [e1]; omega

/-- The output array after all 160 points is the specification's array of the arrays the region was entered with. -/
theorem region2_value (c : Dev nD) :
    (Gen.dat2 (F := Ideal) V c).arrAt 9 cfg2.N
      = Cert.EdgeMlp.logits (E := 800000) (V c main_v96) (V c main_v103) (V c main_arg2) (V c main_v104) (V c main_v105)
          (V c main_v106) (V c main_v107) (V c main_arg9) (V c main_v108) :=
  (dat2 V c).arrAt_eq_of_cover 9 _ (fun t _ => written_block V c t) rows_covered

end Cert.KernelIdeal.EdgeRegion

end
-- ==== Proof.RefStages.lean ====
/-
  The host-side stages of the graph network, each as ONE function of the values it reads (the reference's spelling).

  Edges arrive as a [2, E] integer table: row 0 the sources, row 1 the targets. A graph-convolution layer appends one
  self-loop per node, counts each node's in-degree d (self-loop included) by a scatter-add of ones, normalises an
  edge s → t by d(s)^(-1/2) · d(t)^(-1/2), gathers the projected features of the sources, scales them, scatter-adds
  them into the targets, adds the bias and rectifies.  A negative index counts from the end (x < 0 ? x + N : x).
  The endpoint gather reads a node table at the sources (or the targets) of the E edges.
  These functions are never opened by the certificate: both programs apply the same operations, so the two sides are
  compared stage by stage at equal arguments.
-/
import proofs.«146419_j84378927497589_2_alg».proof.Proof.Gen.ReferenceIdeal
import Idealize.ShloMosaic.PureOps.Ideal

noncomputable section

namespace Cert.ReferenceIdeal.Stages

open Cert.ReferenceIdeal Cert.ReferenceIdeal.Gen Idealize.ShloMosaic

/-- Row `r` of the edge table as a vector of E node indices. -/
def edgeSrc (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

def edgeDst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The E edge endpoints followed by the N self-loops 0, 1, …, N-1. -/
def withLoops (s : (⟨S800000, .i32⟩ : BufTy).Contents (Elt Ideal)) : (⟨S850000, .i32⟩ : BufTy).Contents (Elt Ideal) :=
  concatenate S850000 0 [⟨S800000, s⟩, ⟨S50000, (iotaInDim S50000 32 0)⟩] concatenates_S800000_S50000_S850000_d0

/-- A negative index counts from the end of the N nodes. -/
def wrapNeg (x : (⟨S850000, .i32⟩ : BufTy).Contents (Elt Ideal)) : (⟨S850000, .i32⟩ : BufTy).Contents (Elt Ideal) :=
  select (cmpi .slt x (broadcastInDim S850000 ![] bcast_S_S850000 (constantI S_ 32 0#32)))
    (addi x (broadcastInDim S850000 ![] bcast_S_S850000 (constantI S_ 32 50000#32))) x

/-- An index vector as a one-column index table. -/
def asCol (x : (⟨S850000, .i32⟩ : BufTy).Contents (Elt Ideal)) : (⟨S850000x1, .i32⟩ : BufTy).Contents (Elt Ideal) :=
  broadcastInDim S850000x1 ![0] bcast_S850000_S850000x1_0 x

/-- d^(-1/2) per node, d the in-degree over the targets `t` (self-loops included), never below 1. -/
def degInv (t : (⟨S850000, .i32⟩ : BufTy).Contents (Elt Ideal)) : (⟨S50000, .f32⟩ : BufTy).Contents (Elt Ideal) :=
  Host.rsqrt (F := Ideal) (maximumf
    (Host.scatterAdd (F := Ideal) scatter_S50000_S850000x1_S850000_n_0_0_1
      (broadcastInDim S50000 ![] bcast_S_S50000 (constant (F := Ideal) S_ .f32 0x00000000#32)) (asCol t)
      (broadcastInDim S850000 ![] bcast_S_S850000 (constant (F := Ideal) S_ .f32 0x3F800000#32)))
    (broadcastInDim S50000 ![] bcast_S_S50000 (constant (F := Ideal) S_ .f32 0x3F800000#32)))

/-- The per-edge factor d(s)^(-1/2) · d(t)^(-1/2), from the per-node d^(-1/2) and the two endpoint vectors (self-loops
    appended). -/
def edgeNorm (dinv : (⟨S50000, .f32⟩ : BufTy).Contents (Elt Ideal)) (s t : (⟨S850000, .i32⟩ : BufTy).Contents (Elt Ideal)) :
    (⟨S850000, .f32⟩ : BufTy).Contents (Elt Ideal) :=
  mulf (F := Ideal) (φ := .f32)
    (Host.gather gather_S50000_S850000x1_S850000_n_0_n_n_0_1_1 dinv (asCol (wrapNeg s)))
    (Host.gather gather_S50000_S850000x1_S850000_n_0_n_n_0_1_1 dinv (asCol (wrapNeg t)))

/-- The sources' projected features, scaled per edge, summed into the targets, plus the bias. -/
def aggregate (h : (⟨S50000x64, .f32⟩ : BufTy).Contents (Elt Ideal)) (b : (⟨S64, .f32⟩ : BufTy).Contents (Elt Ideal))
    (s t : (⟨S850000, .i32⟩ : BufTy).Contents (Elt Ideal)) (norm : (⟨S850000, .f32⟩ : BufTy).Contents (Elt Ideal)) :
    (⟨S50000x64, .f32⟩ : BufTy).Contents (Elt Ideal) :=
  addf (F := Ideal) (φ := .f32)
    (Host.scatterAdd (F := Ideal) scatter_S50000x64_S850000x1_S850000x64_1_0_0_1
      (broadcastInDim S50000x64 ![] bcast_S_S50000x64 (constant (F := Ideal) S_ .f32 0x00000000#32))
      (asCol t)
      (mulf (F := Ideal) (φ := .f32)
        (Host.gather gather_S50000x64_S850000x1_S850000x64_1_0_n_n_0_1_164 h (asCol (wrapNeg s)))
        (broadcastInDim S850000x64 ![0, 1] bcast_S850000x1_S850000x64_0_1
          (broadcastInDim S850000x1 ![0] bcast_S850000_S850000x1_0 norm))))
    (broadcastInDim S50000x64 ![0, 1] bcast_S1x64_S50000x64_0_1 (broadcastInDim S1x64 ![1] bcast_S64_S1x64_1 b))

/-- The rectifier on a node table. -/
def rectify (x : (⟨S50000x64, .f32⟩ : BufTy).Contents (Elt Ideal)) : (⟨S50000x64, .f32⟩ : BufTy).Contents (Elt Ideal) :=
  maximumf (F := Ideal) (φ := .f32) x (broadcastInDim S50000x64 ![] bcast_S_S50000x64 (constant (F := Ideal) S_ .f32 0x00000000#32))

/-- One graph-convolution layer after the dense projection `h`: normalised aggregation over sources `s` into
    targets `d`, bias `b`, rectifier. -/
def gcn (h : (⟨S50000x64, .f32⟩ : BufTy).Contents (Elt Ideal)) (b : (⟨S64, .f32⟩ : BufTy).Contents (Elt Ideal))
    (s d : (⟨S800000, .i32⟩ : BufTy).Contents (Elt Ideal)) : (⟨S50000x64, .f32⟩ : BufTy).Contents (Elt Ideal) :=
  rectify (aggregate h b (withLoops s) (withLoops d) (edgeNorm (degInv (withLoops d)) (withLoops s) (withLoops d)))

/-- The node table `h` read at the E endpoints `s`. -/
def endpoint (h : (⟨S50000x64, .f32⟩ : BufTy).Contents (Elt Ideal)) (s : (⟨S800000, .i32⟩ : BufTy).Contents (Elt Ideal)) :
    (⟨S800000x64, .f32⟩ : BufTy).Contents (Elt Ideal) :=
  Host.gather gather_S50000x64_S800000x1_S800000x64_1_0_n_n_0_1_164 h
    (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s))

/-- The reference's edge classifier after the endpoint gathers: the three feature blocks joined along the columns into
    [E, 144], one product with the 144-row weight matrix, bias, rectifier, the second product, bias. -/
def refTail (hs hd : (⟨S800000x64, .f32⟩ : BufTy).Contents (Elt Ideal)) (ea : (⟨S800000x16, .f32⟩ : BufTy).Contents (Elt Ideal))
    (wm1 : (⟨S144x64, .f32⟩ : BufTy).Contents (Elt Ideal)) (bm1 : (⟨S64, .f32⟩ : BufTy).Contents (Elt Ideal))
    (wm2 : (⟨S64x2, .f32⟩ : BufTy).Contents (Elt Ideal)) (bm2 : (⟨S2, .f32⟩ : BufTy).Contents (Elt Ideal)) :
    (⟨S800000x2, .f32⟩ : BufTy).Contents (Elt Ideal) :=
  addf
    (Host.dotGeneral (F := Ideal) (φ₁ := .f32) (φ₂ := .f32) dot_S800000x64_S64x2_S800000x2_1_0_0_1_n_n none
      (maximumf
        (addf
          (Host.dotGeneral (F := Ideal) (φ₁ := .f32) (φ₂ := .f32) dot_S800000x144_S144x64_S800000x64_1_0_0_1_n_n none
            (concatenate S800000x144 1 [⟨S800000x64, hs⟩, ⟨S800000x64, hd⟩, ⟨S800000x16, ea⟩]
              concatenates_S800000x64_S800000x64_S800000x16_S800000x144_d1) wm1)
          (broadcastInDim S800000x64 ![0, 1] bcast_S1x64_S800000x64_0_1 (broadcastInDim S1x64 ![1] bcast_S64_S1x64_1 bm1)))
        (broadcastInDim S800000x64 ![] bcast_S_S800000x64 (constant (F := Ideal) S_ .f32 0x00000000#32))) wm2)
    (broadcastInDim S800000x2 ![0, 1] bcast_S1x2_S800000x2_0_1 (broadcastInDim S1x2 ![1] bcast_S2_S1x2_1 bm2))

/-- The two dense node projections, as the reference takes them. -/
def proj1 (x : (⟨S50000x128, .f32⟩ : BufTy).Contents (Elt Ideal)) (w : (⟨S128x64, .f32⟩ : BufTy).Contents (Elt Ideal)) :
    (⟨S50000x64, .f32⟩ : BufTy).Contents (Elt Ideal) :=
  Host.dotGeneral (F := Ideal) (φ₁ := .f32) (φ₂ := .f32) dot_S50000x128_S128x64_S50000x64_1_0_0_1_n_n none x w

def proj2 (h : (⟨S50000x64, .f32⟩ : BufTy).Contents (Elt Ideal)) (w : (⟨S64x64, .f32⟩ : BufTy).Contents (Elt Ideal)) :
    (⟨S50000x64, .f32⟩ : BufTy).Contents (Elt Ideal) :=
  Host.dotGeneral (F := Ideal) (φ₁ := .f32) (φ₂ := .f32) dot_S50000x64_S64x64_S50000x64_1_0_0_1_n_n none h w

/-- The node embeddings after both layers, as a function of the arguments. -/
def nodes (x : (⟨S50000x128, .f32⟩ : BufTy).Contents (Elt Ideal)) (ei : (⟨S2x800000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S50000x64, .f32⟩ : BufTy).Contents (Elt Ideal) :=
  gcn (proj2 (gcn (proj1 x w1) b1 (edgeSrc ei) (edgeDst ei)) w2) b2 (edgeSrc ei) (edgeDst ei)

end Cert.ReferenceIdeal.Stages

end
-- ==== Proof.StagesEq.lean ====
/-
  The two programs spell the host-side stages with their own copies of the same dimension records and shapes; the
  stage functions are therefore the same functions.
-/
import proofs.«146419_j84378927497589_2_alg».proof.Proof.RefStages
import proofs.«146419_j84378927497589_2_alg».proof.Proof.KerStages

noncomputable section

namespace Cert.StagesEq

open Idealize.ShloMosaic

theorem edgeSrc_eq : Cert.KernelIdeal.Stages.edgeSrc = Cert.ReferenceIdeal.Stages.edgeSrc := rfl
theorem edgeDst_eq : Cert.KernelIdeal.Stages.edgeDst = Cert.ReferenceIdeal.Stages.edgeDst := rfl
theorem gcn_eq : Cert.KernelIdeal.Stages.gcn = Cert.ReferenceIdeal.Stages.gcn := rfl
theorem endpoint_eq : Cert.KernelIdeal.Stages.endpoint = Cert.ReferenceIdeal.Stages.endpoint := rfl

end Cert.StagesEq

end
-- ==== Proof.TailLaw.lean ====
/-
  The law that joins the two edge classifiers.

  The reference joins the three feature blocks of an edge (source embedding, target embedding, edge features) along the
  columns into 144 = 64 + 64 + 16 entries and takes ONE product with the 144-row weight matrix.  Entry (e, j) of that
  product is a sum over 144 consecutive positions; split at 64 and 128 it is the sum of three sums, and on each stretch
  the joined array is one of the blocks while the weight matrix is one of its three row blocks.  Addition on the extended
  reals is commutative and associative, so the regrouping holds with no entry asked to be finite.  The rest of the tail
  (bias row, rectifier, second product, bias row) is read entry by entry.
-/
import proofs.«146419_j84378927497589_2_alg».proof.Proof.RefStages
import proofs.«146419_j84378927497589_2_alg».proof.Proof.LibPlainMatmul
import proofs.«146419_j84378927497589_2_alg».proof.Proof.EdgeSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.TailLaw

open Cert.ReferenceIdeal Cert.ReferenceIdeal.Gen Cert.ReferenceIdeal.Stages Idealize.ShloMosaic Idealize.ShloMosaic.ValueIdx

/-- A sum over 144 consecutive positions is the sum over the first 64, the next 64 and the last 16. -/
theorem sum_three (f : Fin 144 → EReal) :
    ∑ k : Fin 144, f k
      = ((∑ k : Fin 64, f ⟨k.val, by have := k.isLt; omega⟩) + ∑ k : Fin 64, f ⟨64 + k.val, by have := k.isLt; omega⟩)
        + ∑ k : Fin 16, f ⟨128 + k.val, by have := k.isLt; omega⟩ := by
  rw [show (∑ k : Fin 144, f k) = ∑ k : Fin (64 + 64 + 16), f k from rfl, Fin.sum_univ_add, Fin.sum_univ_add]
  rfl

section Join

variable (hs hd : (⟨S800000x64, .f32⟩ : BufTy).Contents (Elt Ideal)) (ea : (⟨S800000x16, .f32⟩ : BufTy).Contents (Elt Ideal))

/-- The three feature blocks joined along the columns. -/
abbrev joined : S800000x144.Idx → EReal :=
  concatenate S800000x144 1 [⟨S800000x64, hs⟩, ⟨S800000x64, hd⟩, ⟨S800000x16, ea⟩]
    concatenates_S800000x64_S800000x64_S800000x16_S800000x144_d1

/-- Columns 0–63 of the joined array are the source embedding. -/
theorem joined_src (e : Fin 800000) (k : Fin 64) :
    joined hs hd ea (ix2 e (⟨k.val, by have := k.isLt; omega⟩ : Fin 144)) = hs (ix2 e k) :=
  concatenate_apply_piece (t := S800000x144) 1 _ _ _ 0 (by simp) S800000x64 hs rfl rfl 0 rfl (ix2 e k)
    (fun b hb => by
      match b with
      | ⟨0, _⟩ => rfl
      | ⟨1, _⟩ => exact absurd rfl hb)
    (by show 0 + k.val = k.val; omega)

/-- Columns 64–127 are the target embedding. -/
theorem joined_dst (e : Fin 800000) (k : Fin 64) :
    joined hs hd ea (ix2 e (⟨64 + k.val, by have := k.isLt; omega⟩ : Fin 144)) = hd (ix2 e k) :=
  concatenate_apply_piece (t := S800000x144) 1 _ _ _ 1 (by simp) S800000x64 hd rfl rfl 64 rfl (ix2 e k)
    (fun b hb => by
      match b with
      | ⟨0, _⟩ => rfl
      | ⟨1, _⟩ => exact absurd rfl hb)
    (by show 64 + k.val = 64 + k.val; rfl)

/-- Columns 128–143 are the edge's own features. -/
theorem joined_edge (e : Fin 800000) (k : Fin 16) :
    joined hs hd ea (ix2 e (⟨128 + k.val, by have := k.isLt; omega⟩ : Fin 144)) = ea (ix2 e k) :=
  concatenate_apply_piece (t := S800000x144) 1 _ _ _ 2 (by simp) S800000x16 ea rfl rfl 128 rfl (ix2 e k)
    (fun b hb => by
      match b with
      | ⟨0, _⟩ => rfl
      | ⟨1, _⟩ => exact absurd rfl hb)
    (by show 128 + k.val = 128 + k.val; rfl)

end Join

section Tail

variable (hs hd : (⟨S800000x64, .f32⟩ : BufTy).Contents (Elt Ideal)) (ea : (⟨S800000x16, .f32⟩ : BufTy).Contents (Elt Ideal))
  (wm1 : (⟨S144x64, .f32⟩ : BufTy).Contents (Elt Ideal)) (bm1 : (⟨S64, .f32⟩ : BufTy).Contents (Elt Ideal))
  (wm2 : (⟨S64x2, .f32⟩ : BufTy).Contents (Elt Ideal)) (bm2 : (⟨S2, .f32⟩ : BufTy).Contents (Elt Ideal))
  (ws wd : (⟨2, ![64, 64]⟩ : Shape).Idx → EReal) (we : (⟨2, ![16, 64]⟩ : Shape).Idx → EReal)
  (b1 : (⟨2, ![1, 64]⟩ : Shape).Idx → EReal) (b2 : (⟨2, ![1, 2]⟩ : Shape).Idx → EReal)

/-- The one product over the joined columns is the three partial products, when `ws`, `wd`, `we` are the weight
    matrix's row blocks. -/
theorem product_split
    (hws : ∀ k j : Fin 64, ws (ix2 k j) = wm1 (ix2 (⟨k.val, by have := k.isLt; omega⟩ : Fin 144) j))
    (hwd : ∀ k j : Fin 64, wd (ix2 k j) = wm1 (ix2 (⟨64 + k.val, by have := k.isLt; omega⟩ : Fin 144) j))
    (hwe : ∀ (k : Fin 16) (j : Fin 64), we (ix2 k j) = wm1 (ix2 (⟨128 + k.val, by have := k.isLt; omega⟩ : Fin 144) j))
    (e : Fin 800000) (j : Fin 64) :
    Host.dotGeneral (F := Ideal) (φ₁ := .f32) (φ₂ := .f32) dot_S800000x144_S144x64_S800000x64_1_0_0_1_n_n none (joined hs hd ea) wm1 (ix2 e j)
      = ((∑ k : Fin 64, hs (ix2 e k) * ws (ix2 k j)) + ∑ k : Fin 64, hd (ix2 e k) * wd (ix2 k j))
        + ∑ k : Fin 16, ea (ix2 e k) * we (ix2 k j) := by
  simp only [Host.dotGeneral]
  refine (Cert.PlainMatmul.dotGeneral_apply dot_S800000x144_S144x64_S800000x64_1_0_0_1_n_n_wf none _
    (joined hs hd ea) wm1 e j).trans ?_
  rw [sum_three]
  refine congrArg₂ (· + ·) (congrArg₂ (· + ·) ?_ ?_) ?_
  · exact Finset.sum_congr rfl fun k _ => by rw [joined_src, hws]
  · exact Finset.sum_congr rfl fun k _ => by rw [joined_dst, hwd]
  · exact Finset.sum_congr rfl fun k _ => by rw [joined_edge, hwe]

/-- A bias vector sent to one row and then over all rows reads, at (e, j), the vector's entry j. -/
theorem bias64_apply (e : Fin 800000) (j : Fin 64) :
    broadcastInDim S800000x64 ![0, 1] bcast_S1x64_S800000x64_0_1 (broadcastInDim S1x64 ![1] bcast_S64_S1x64_1 bm1) (ix2 e j)
      = bm1 (ix1 j) := by
  refine (broadcastInDim_apply _ _ _ (ix2 e j) (ix2 (0 : Fin 1) j) fun a => ?_).trans
    (broadcastInDim_apply _ _ bm1 (ix2 (0 : Fin 1) j) (ix1 j) fun a => ?_)
  · match a with
    | ⟨0, _⟩ => rfl
    | ⟨1, _⟩ => show j.val = if (64 : ℕ) = 1 then 0 else j.val; rw [if_neg (by decide)]
  · match a with
    | ⟨0, _⟩ => show j.val = if (64 : ℕ) = 1 then 0 else j.val; rw [if_neg (by decide)]

theorem bias2_apply (e : Fin 800000) (o : Fin 2) :
    broadcastInDim S800000x2 ![0, 1] bcast_S1x2_S800000x2_0_1 (broadcastInDim S1x2 ![1] bcast_S2_S1x2_1 bm2) (ix2 e o)
      = bm2 (ix1 o) := by
  refine (broadcastInDim_apply _ _ _ (ix2 e o) (ix2 (0 : Fin 1) o) fun a => ?_).trans
    (broadcastInDim_apply _ _ bm2 (ix2 (0 : Fin 1) o) (ix1 o) fun a => ?_)
  · match a with
    | ⟨0, _⟩ => rfl
    | ⟨1, _⟩ => show o.val = if (2 : ℕ) = 1 then 0 else o.val; rw [if_neg (by decide)]
  · match a with
    | ⟨0, _⟩ => show o.val = if (2 : ℕ) = 1 then 0 else o.val; rw [if_neg (by decide)]

/-- The zero scalar sent over a whole array reads 0 everywhere. -/
theorem zeros_apply (e : Fin 800000) (j : Fin 64) :
    broadcastInDim S800000x64 ![] bcast_S_S800000x64 (constant (F := Ideal) S_ .f32 0x00000000#32) (ix2 e j) = (0 : EReal) := by
  refine (broadcastInDim_apply _ _ _ (ix2 e j) (fun a => a.elim0) fun a => a.elim0).trans ?_
  exact Ideal.ofBits_zero_f32

/-- THE TAIL: the reference's edge classifier is the perceptron of `Cert.EdgeMlp` over the weight matrix's three row
    blocks and the two biases as rows. -/
theorem refTail_eq
    (hws : ∀ k j : Fin 64, ws (ix2 k j) = wm1 (ix2 (⟨k.val, by have := k.isLt; omega⟩ : Fin 144) j))
    (hwd : ∀ k j : Fin 64, wd (ix2 k j) = wm1 (ix2 (⟨64 + k.val, by have := k.isLt; omega⟩ : Fin 144) j))
    (hwe : ∀ (k : Fin 16) (j : Fin 64), we (ix2 k j) = wm1 (ix2 (⟨128 + k.val, by have := k.isLt; omega⟩ : Fin 144) j))
    (hb1 : ∀ j : Fin 64, b1 (ix2 (0 : Fin 1) j) = bm1 (ix1 j))
    (hb2 : ∀ o : Fin 2, b2 (ix2 (0 : Fin 1) o) = bm2 (ix1 o)) :
    refTail hs hd ea wm1 bm1 wm2 bm2 = Cert.EdgeMlp.logits (E := 800000) hs hd ea ws wd we b1 wm2 b2 := by
  funext i
  obtain ⟨e, o, rfl⟩ : ∃ (e : Fin 800000) (o : Fin 2), i = ix2 e o := ⟨i 0, i 1, eq_ix2 i⟩
  show refTail hs hd ea wm1 bm1 wm2 bm2 (ix2 e o) = Cert.EdgeMlp.logit hs hd ea ws wd we b1 wm2 b2 e o
  unfold refTail Cert.EdgeMlp.logit
  refine congrArg₂ (· + ·) ?_ ((bias2_apply bm2 e o).trans (hb2 o).symm)
  simp only [Host.dotGeneral]
  refine (Cert.PlainMatmul.dotGeneral_apply dot_S800000x64_S64x2_S800000x2_1_0_0_1_n_n_wf none _ _ wm2 e o).trans ?_
  refine Finset.sum_congr rfl fun j _ => congrArg (· * wm2 (ix2 j o)) ?_
  unfold Cert.EdgeMlp.hidden
  refine congrArg₂ max (congrArg₂ (· + ·) ?_ ((bias64_apply bm1 e j).trans (hb1 j).symm)) (zeros_apply e j)
  exact product_split hs hd ea wm1 ws wd we hws hwd hwe e j

end Tail

end Cert.ReferenceIdeal.TailLaw

end
-- ==== Proof.RefChain.lean ====
/-
  The reference, read as its stages: its result is the edge classifier's tail applied to the two endpoint gathers of the
  node embeddings, the embeddings two graph-convolution layers over the two dense projections.  Every step is the
  reference's own operations regrouped under the stage names; nothing is computed.
-/
import proofs.«146419_j84378927497589_2_alg».proof.Proof.RefStages
import proofs.«146419_j84378927497589_2_alg».proof.Proof.Gen.ReferenceIdeal.Read

noncomputable section

namespace Cert.ReferenceIdeal.Chain

open Cert.ReferenceIdeal Cert.ReferenceIdeal.Gen Cert.ReferenceIdeal.Read Cert.ReferenceIdeal.Stages Idealize.ShloMosaic

variable (x0 : (⟨S50000x128, .f32⟩ : BufTy).Contents (Elt Ideal)) (x1 : (⟨S2x800000, .i32⟩ : BufTy).Contents (Elt Ideal))
  (x2 : (⟨S800000x16, .f32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S144x64, .f32⟩ : BufTy).Contents (Elt Ideal))
  (x8 : (⟨S64, .f32⟩ : BufTy).Contents (Elt Ideal)) (x9 : (⟨S64x2, .f32⟩ : BufTy).Contents (Elt Ideal))
  (x10 : (⟨S2, .f32⟩ : BufTy).Contents (Elt Ideal))

/-- After the first layer. -/
theorem layer1 : val_main_v46 (F := Ideal) x0 x1 x3 x4 = gcn (proj1 x0 x3) x4 (edgeSrc x1) (edgeDst x1) := rfl

/-- After the second layer. -/
theorem layer2 : val_main_v89 (F := Ideal) x0 x1 x3 x4 x5 x6 = nodes x0 x1 x3 x4 x5 x6 := rfl

/-- The embeddings gathered at the sources and at the targets. -/
theorem atSrc : val_main_v96 (F := Ideal) x0 x1 x3 x4 x5 x6 = endpoint (nodes x0 x1 x3 x4 x5 x6) (edgeSrc x1) := rfl
theorem atDst : val_main_v103 (F := Ideal) x0 x1 x3 x4 x5 x6 = endpoint (nodes x0 x1 x3 x4 x5 x6) (edgeDst x1) := rfl

/-- The reference's result. -/
theorem result : val_main_v113 (F := Ideal) x0 x1 x2 x3 x4 x5 x6 x7 x8 x9 x10
    = refTail (endpoint (nodes x0 x1 x3 x4 x5 x6) (edgeSrc x1)) (endpoint (nodes x0 x1 x3 x4 x5 x6) (edgeDst x1)) x2 x7 x8 x9 x10 := rfl

end Cert.ReferenceIdeal.Chain

end
-- ==== Proof.KerValue.lean ====
/-
  The kernel program's result, as the reference's function of the arguments.

  Walking the boundaries back from the return: the result buffer is region 2's output array, the edge perceptron of the
  two endpoint gathers, the edge features, the weight matrix's three row blocks and the two bias rows; the gathers read
  the second layer's embeddings; each layer is the shared graph-convolution stage over a dense projection; and each
  projection region leaves exactly the product the reference takes.  The host stages are the same functions in both
  programs, and the perceptron over the three row blocks is the reference's one product over the joined columns
  (the tail law).  So the result buffer holds the reference's value at the kernel's own arguments.
-/
import proofs.«146419_j84378927497589_2_alg».proof.Proof.KerWalk
import proofs.«146419_j84378927497589_2_alg».proof.Proof.NodeProj0
import proofs.«146419_j84378927497589_2_alg».proof.Proof.NodeProj1
import proofs.«146419_j84378927497589_2_alg».proof.Proof.EdgeRegion
import proofs.«146419_j84378927497589_2_alg».proof.Proof.StagesEq
import proofs.«146419_j84378927497589_2_alg».proof.Proof.TailLaw
import proofs.«146419_j84378927497589_2_alg».proof.Proof.RefChain
import Idealize.ShloMosaic.Lib.ValueLayout

set_option maxRecDepth 16384

noncomputable section

namespace Cert.KernelIdeal.Value

open Cert.KernelIdeal Cert.KernelIdeal.Gen Cert.KernelIdeal.Walk
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After the first layer (entering region 1). -/
theorem nodes1 : W4 m ρ c (Proc.devRef .tc main_v46)
    = Cert.ReferenceIdeal.Stages.gcn (Cert.ReferenceIdeal.Stages.proj1 (m ((c : Thread nD τ).loc main_arg0)) (m ((c : Thread nD τ).loc main_arg3))) (m ((c : Thread nD τ).loc main_arg4))
        (Cert.ReferenceIdeal.Stages.edgeSrc (m ((c : Thread nD τ).loc main_arg1))) (Cert.ReferenceIdeal.Stages.edgeDst (m ((c : Thread nD τ).loc main_arg1))) := by
  have hP : W2 m ρ c (Proc.devRef .tc main_v4) = Cert.ReferenceIdeal.Stages.proj1 (m ((c : Thread nD τ).loc main_arg0)) (m ((c : Thread nD τ).loc main_arg3)) := by
    rw [w2_proj, Cert.KernelIdeal.NodeProj0.region0_value (V1 m ρ) c]
    show Cert.ReferenceIdeal.Stages.proj1 (W1 m ρ c (Proc.devRef .tc main_arg0)) (W1 m ρ c (Proc.devRef .tc main_arg3)) = _
    rw [w1_arg m ρ c main_arg0 (by simp), w1_arg m ρ c main_arg3 (by simp)]
  rw [w4_nodes, hP, arg_at2 m ρ c main_arg4 (by simp), src_at2, dst_at2,
    Cert.StagesEq.gcn_eq, Cert.StagesEq.edgeSrc_eq, Cert.StagesEq.edgeDst_eq]

/-- After the second layer. -/
theorem nodes2 : W7 m ρ c (Proc.devRef .tc main_v89)
    = Cert.ReferenceIdeal.Stages.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have hP : W5 m ρ c (Proc.devRef .tc main_v47)
      = Cert.ReferenceIdeal.Stages.proj2 (W4 m ρ c (Proc.devRef .tc main_v46)) (m ((c : Thread nD τ).loc main_arg5)) := by
    rw [w5_proj, Cert.KernelIdeal.NodeProj1.region1_value (V4 m ρ) c]
    show Cert.ReferenceIdeal.Stages.proj2 (W4 m ρ c (Proc.devRef .tc main_v46)) (W4 m ρ c (Proc.devRef .tc main_arg5)) = _
    rw [arg_at4 m ρ c main_arg5 (by simp)]
  rw [w7_nodes, hP, nodes1, arg_at5 m ρ c main_arg6 (by simp), src_at5, dst_at5,
    Cert.StagesEq.gcn_eq, Cert.StagesEq.edgeSrc_eq, Cert.StagesEq.edgeDst_eq]
  rfl

/-- THE RESULT: when @main returns the result buffer holds the reference's function of the arguments. -/
theorem result_eq : W9 m ρ c (Proc.devRef .tc main_v109)
    = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e96 : V8 m ρ c main_v96 = Cert.ReferenceIdeal.Stages.endpoint
      (Cert.ReferenceIdeal.Stages.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.Stages.edgeSrc (m ((c : Thread nD τ).loc main_arg1))) := by
    show W8 m ρ c (Proc.devRef .tc main_v96) = _
    rw [w8_src, nodes2, src_at7, Cert.StagesEq.endpoint_eq, Cert.StagesEq.edgeSrc_eq]
  have e103 : V8 m ρ c main_v103 = Cert.ReferenceIdeal.Stages.endpoint
      (Cert.ReferenceIdeal.Stages.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.Stages.edgeDst (m ((c : Thread nD τ).loc main_arg1))) := by
    show W8 m ρ c (Proc.devRef .tc main_v103) = _
    rw [w8_dst, nodes2, dst_at7, Cert.StagesEq.endpoint_eq, Cert.StagesEq.edgeDst_eq]
  have e2 : V8 m ρ c main_arg2 = (m ((c : Thread nD τ).loc main_arg2)) := by
    show W8 m ρ c (Proc.devRef .tc main_arg2) = _
    rw [w8_keep m ρ c main_arg2 (by simp), arg_at7 m ρ c main_arg2 (by simp)]
  have e9 : V8 m ρ c main_arg9 = (m ((c : Thread nD τ).loc main_arg9)) := by
    show W8 m ρ c (Proc.devRef .tc main_arg9) = _
    rw [w8_keep m ρ c main_arg9 (by simp), arg_at7 m ρ c main_arg9 (by simp)]
  have e104 : V8 m ρ c main_v104 = extractStridedSlice S64x64 ![0, 0] (m ((c : Thread nD τ).loc main_arg7)) slices_S144x64_S64x64_0_0 := by
    show W8 m ρ c (Proc.devRef .tc main_v104) = _
    rw [w8_wSrc, arg_at7 m ρ c main_arg7 (by simp)]
  have e105 : V8 m ρ c main_v105 = extractStridedSlice S64x64 ![64, 0] (m ((c : Thread nD τ).loc main_arg7)) slices_S144x64_S64x64_64_0 := by
    show W8 m ρ c (Proc.devRef .tc main_v105) = _
    rw [w8_wDst, arg_at7 m ρ c main_arg7 (by simp)]
  have e106 : V8 m ρ c main_v106 = extractStridedSlice S16x64 ![128, 0] (m ((c : Thread nD τ).loc main_arg7)) slices_S144x64_S16x64_128_0 := by
    show W8 m ρ c (Proc.devRef .tc main_v106) = _
    rw [w8_wEdge, arg_at7 m ρ c main_arg7 (by simp)]
  have e107 : V8 m ρ c main_v107 = shapeCast S1x64 (m ((c : Thread nD τ).loc main_arg8)) shapeCasts_S64_S1x64 := by
    show W8 m ρ c (Proc.devRef .tc main_v107) = _
    rw [w8_bRow1, arg_at7 m ρ c main_arg8 (by simp)]
  have e108 : V8 m ρ c main_v108 = shapeCast S1x2 (m ((c : Thread nD τ).loc main_arg10)) shapeCasts_S2_S1x2 := by
    show W8 m ρ c (Proc.devRef .tc main_v108) = _
    rw [w8_bRow2, arg_at7 m ρ c main_arg10 (by simp)]
  rw [w9_out, Cert.KernelIdeal.EdgeRegion.region2_value (V8 m ρ) c, e96, e103, e2, e104, e105, e106, e107, e9, e108,
    Cert.ReferenceIdeal.Chain.result]
  refine (Cert.ReferenceIdeal.TailLaw.refTail_eq _ _ _ (m ((c : Thread nD τ).loc main_arg7)) (m ((c : Thread nD τ).loc main_arg8)) _ (m ((c : Thread nD τ).loc main_arg10)) _ _ _ _ _ ?_ ?_ ?_ ?_ ?_).symm
  · exact fun k j => slice2_axis0_apply 0 _ _ k j _ (Nat.zero_add _).symm
  · exact fun k j => slice2_axis0_apply 64 _ _ k j _ rfl
  · exact fun k j => slice2_axis0_apply 128 _ _ k j _ rfl
  · exact fun j => shapeCast_a_1a_apply _ _ 0 j
  · exact fun o => shapeCast_a_1a_apply _ _ 0 o

end Cert.KernelIdeal.Value

end
-- ==== Proof.lean ====
/-
  An edge classifier over a graph: two graph-convolution layers (dense projection, degree-normalised aggregation over the
  edges and self-loops, bias, rectifier), the embeddings gathered at both endpoints of every edge, and a two-layer
  perceptron over [source embedding | target embedding | edge features].

  The kernel program computes the two dense projections and the perceptron in three pipelined regions, each over blocks of
  5000 rows, and everything between them with the same host operations as the reference.  Its perceptron never joins the
  three feature blocks: it multiplies each by its own row block of the first weight matrix and adds the three products.
  On the extended reals both programs compute the same function of the arguments:
    • a region's blocks tile its output array, and block t holds the rows t·5000 … t·5000+4999 of the whole product
      (NodeProj0, NodeProj1) or of the perceptron, an edge's output reading only that edge's rows (EdgeBlock, EdgeRegion);
    • the host stages between the regions are the same functions in both programs (KerStages, RefStages, StagesEq), applied
      to equal values (KerChain, KerWalk, RefChain);
    • a sum over the 144 joined columns is the sum of the three partial sums (TailLaw): only commutativity and
      associativity of + are used, so no entry has to be finite and the precondition is never opened.
  The idealization rewrote nothing, so its conjunct is trivial; the three frames are the generated ones.
-/
import proofs.«146419_j84378927497589_2_alg».proof.Defs
import proofs.«146419_j84378927497589_2_alg».proof.Proof.Gen.Kernel
import proofs.«146419_j84378927497589_2_alg».proof.Proof.Gen.Kernel.Frame
import proofs.«146419_j84378927497589_2_alg».proof.Proof.Gen.KernelIdeal
import proofs.«146419_j84378927497589_2_alg».proof.Proof.Gen.KernelIdeal.Frame
import proofs.«146419_j84378927497589_2_alg».proof.Proof.Gen.ReferenceIdeal
import proofs.«146419_j84378927497589_2_alg».proof.Proof.Gen.ReferenceIdeal.Run
import proofs.«146419_j84378927497589_2_alg».proof.Proof.Gen.ReferenceIdeal.Read
import proofs.«146419_j84378927497589_2_alg».proof.Proof.Gen.Pre_finite_inputs
import proofs.«146419_j84378927497589_2_alg».proof.Proof.KernelRun
import proofs.«146419_j84378927497589_2_alg».proof.Proof.KerValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's function of the (agreeing) arguments in their result buffers. -/
theorem algebraic : Cert.algebraic_KernelIdeal_ReferenceIdeal := by
  intro m ρ m' ρ' _ hagree
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v113_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
